-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 29
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S8192x1024, .f32⟩
  | .hbm, ⟨20, _⟩ => ⟨S8192x1024, .bf16⟩
  | .hbm, ⟨21, _⟩ => ⟨S4x2048x1024, .bf16⟩
  | .hbm, ⟨22, _⟩ => ⟨S8192x1024, .f32⟩
  | .hbm, ⟨23, _⟩ => ⟨S8192x1024, .bf16⟩
  | .hbm, ⟨24, _⟩ => ⟨S4x2048x1024, .bf16⟩
  | .hbm, ⟨25, _⟩ => ⟨S8192x1024, .f32⟩
  | .hbm, ⟨26, _⟩ => ⟨S8192x1024, .bf16⟩
  | .hbm, ⟨27, _⟩ => ⟨S4x2048x1024, .bf16⟩
  | .hbm, ⟨28, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024, .f32⟩
  | .local _ .vmem, ⟨16, _⟩ => ⟨S1024x1024, .bf16⟩
  | .local _ .vmem, ⟨17, _⟩ => ⟨S1024x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S1024x1024, .bf16⟩
  | .local _ .vmem, ⟨25, _⟩ => ⟨S1024, .f32⟩
  | .local _ .vmem, ⟨26, _⟩ => ⟨S1x256x1024, .f32⟩
  | .local _ .vmem, ⟨27, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

class Facts₀ : Prop where
  transposes_S1024x1024_S1024x1024_1_0 : S1024x1024.Transposes [1, 0] S1024x1024
  bitsLt_bf16_f32 : FTy.bits .bf16 < FTy.bits .f32
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S256x1024_o0_0_S256x64 : S256x1024.Slices ![0, 0] S256x64
  slices_S2048x1024_o0_0_S2048x64 : S2048x1024.Slices ![0, 0] S2048x64
  reduces_S256x2048_S256 : S256x2048.Reduces [1] S256
  shapeCasts_S256_S256x1 : S256.ShapeCasts S256x1
  broadcasts_S256x1_S256x2048 : S256x1.Broadcasts S256x2048
  slices_S256x1024_o0_64_S256x64 : S256x1024.Slices ![0, 64] S256x64
  slices_S2048x1024_o0_64_S2048x64 : S2048x1024.Slices ![0, 64] S2048x64
  slices_S256x1024_o0_128_S256x64 : S256x1024.Slices ![0, 128] S256x64
  slices_S2048x1024_o0_128_S2048x64 : S2048x1024.Slices ![0, 128] S2048x64
  slices_S256x1024_o0_192_S256x64 : S256x1024.Slices ![0, 192] S256x64
  slices_S2048x1024_o0_192_S2048x64 : S2048x1024.Slices ![0, 192] S2048x64
  slices_S256x1024_o0_256_S256x64 : S256x1024.Slices ![0, 256] S256x64
  slices_S2048x1024_o0_256_S2048x64 : S2048x1024.Slices ![0, 256] S2048x64
  slices_S256x1024_o0_320_S256x64 : S256x1024.Slices ![0, 320] S256x64
  slices_S2048x1024_o0_320_S2048x64 : S2048x1024.Slices ![0, 320] S2048x64
  slices_S256x1024_o0_384_S256x64 : S256x1024.Slices ![0, 384] S256x64
  slices_S2048x1024_o0_384_S2048x64 : S2048x1024.Slices ![0, 384] S2048x64
  slices_S256x1024_o0_448_S256x64 : S256x1024.Slices ![0, 448] S256x64
  slices_S2048x1024_o0_448_S2048x64 : S2048x1024.Slices ![0, 448] S2048x64
  slices_S256x1024_o0_512_S256x64 : S256x1024.Slices ![0, 512] S256x64
  slices_S2048x1024_o0_512_S2048x64 : S2048x1024.Slices ![0, 512] S2048x64
  slices_S256x1024_o0_576_S256x64 : S256x1024.Slices ![0, 576] S256x64
  slices_S2048x1024_o0_576_S2048x64 : S2048x1024.Slices ![0, 576] S2048x64
  slices_S256x1024_o0_640_S256x64 : S256x1024.Slices ![0, 640] S256x64
  slices_S2048x1024_o0_640_S2048x64 : S2048x1024.Slices ![0, 640] S2048x64
  slices_S256x1024_o0_704_S256x64 : S256x1024.Slices ![0, 704] S256x64
  slices_S2048x1024_o0_704_S2048x64 : S2048x1024.Slices ![0, 704] S2048x64
  slices_S256x1024_o0_768_S256x64 : S256x1024.Slices ![0, 768] S256x64
  slices_S2048x1024_o0_768_S2048x64 : S2048x1024.Slices ![0, 768] S2048x64
  slices_S256x1024_o0_832_S256x64 : S256x1024.Slices ![0, 832] S256x64
  slices_S2048x1024_o0_832_S2048x64 : S2048x1024.Slices ![0, 832] S2048x64
  slices_S256x1024_o0_896_S256x64 : S256x1024.Slices ![0, 896] S256x64
  slices_S2048x1024_o0_896_S2048x64 : S2048x1024.Slices ![0, 896] S2048x64
  slices_S256x1024_o0_960_S256x64 : S256x1024.Slices ![0, 960] S256x64
  slices_S2048x1024_o0_960_S2048x64 : S2048x1024.Slices ![0, 960] S2048x64
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  broadcasts_S1x1024_S256x1024 : S1x1024.Broadcasts S256x1024
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S4x2048x1024.size a
  hwx3_0 : ∀ i : grid3.Coords, EltTy.bits .bf16 = 32 ∨ (Rect.block (s := S4x2048x1024) S1x256x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S4x2048x1024.size a
  hwx3_1 : ∀ i : grid3.Coords, EltTy.bits .bf16 = 32 ∨ (Rect.block (s := S4x2048x1024) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S4x2048x1024.size a
  hwx3_2 : ∀ i : grid3.Coords, EltTy.bits .bf16 = 32 ∨ (Rect.block (s := S4x2048x1024) S1x2048x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024.size a ≤ S1024.size a
  hwx3_4 : ∀ i : grid3.Coords, EltTy.bits .f32 = 32 ∨ (Rect.block (s := S1024) S1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x256x1024.size a ≤ S4x2048x1024.size a
  hwx3_5 : ∀ i : grid3.Coords, EltTy.bits .f32 = 32 ∨ (Rect.block (s := S4x2048x1024) S1x256x1024.size (cc3_transform_5 i) (hinb3_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v10) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S1x2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x2048x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v17) S1x256x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S4x16x2048x2048, .f32⟩
  | .hbm, ⟨30, _⟩ => ⟨S_, .f32⟩
  | .hbm, ⟨31, _⟩ => ⟨S_, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x64, .f32⟩
  | .hbm, ⟨49, _⟩ => ⟨S4x2048x16x64, .f32⟩
  | .hbm, ⟨50, _⟩ => ⟨S4x2048x1024, .f32⟩
  | .hbm, ⟨51, _⟩ => ⟨S4x2048x1024, .f32⟩
  | .hbm, ⟨52, _⟩ => ⟨S1x1x1024, .f32⟩
  | .hbm, ⟨53, _⟩ => ⟨S4x2048x1024, .f32⟩
  | .hbm, ⟨54, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelRun.lean ====
/-
  The idealized kernel's run, with its result named.

  Every weakly fair execution of the program's main function terminates without a fault; afterwards each of the
  eleven argument arrays holds what it held at the launch, and the result array holds the contents that the last of
  the four kernel regions leaves in it: the value of the fold of buffer contents (host operations applied, then a
  region's write-backs, four times over) at the result buffer.  The argument is the one that shows the arguments
  unchanged, with one more buffer read off the final thread state.
-/
import proofs.«135135_j1846835938037_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last region's contents of the result buffer, the arguments as launched. -/
theorem run_result : θ_run defs (onTc (τ := τ) (main (F := F))) ⟨m, fun _ => 0, ρ⟩ (fun r => ∀ c : Dev nD,
      r.2.mem ((c.tc : Thread nD τ).loc main_v17) = W8 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v17 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.RunValue

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.LibUnitAxes.lean ====
/-
  Two leading unit axes dropped or added, and a row maximum, read at an index.

  A block `[1, 1, a, b]` of a rank-4 array and the matrix `[a, b]` it is cast to hold the same entries in the same
  row-major order: entry `(0, 0, i, j)` of the one is entry `(i, j)` of the other, in both directions.  A float
  maximum over the last axis of an `[a, b]` matrix is, at row `i`, the maximum from the starting value over the
  entries `(i, f)` of that row.  Stated for any extents and any element type.
-/
import Idealize.ShloMosaic.Lib.ValueLayout
import Idealize.ShloMosaic.PureOps.Ideal.Laws

noncomputable section

namespace Cert.LibUnitAxes

open Idealize.ShloMosaic Idealize.ShloMosaic.ValueIdx

variable {α : Type}

/-- A block `[1, 1, a, b]` cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A matrix `[a, b]` cast to a block `[1, 1, a, b]` reads, at `(u, v, i, j)`, the matrix at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- On the extended reals a float maximum over the last axis of an `[a, b]` matrix reads, at row `i`, the maximum
    from the starting value over that row's entries. -/
theorem multiReduction_maximumf_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun f : Fin b => src (ix2 i f)) := by
  refine (Ideal.multiReduction_maximumf_single src acc h hφ hacc (ix1 i)).trans ?_
  refine congrArg (fun g => (Finset.univ : Finset (Fin b)).fold max (Ideal.ofBits φ acc) g) ?_
  funext f
  exact congrArg src (funext fun d => Fin.ext (by
    match d with
    | ⟨0, _⟩ => rfl
    | ⟨1, _⟩ => rfl))

end Cert.LibUnitAxes

end
-- ==== Proof.LibSoftmaxRows.lean ====
/-
  The softmax of every row of an f32 matrix, as the vector operations a kernel body spells it with, read at an entry
  on the extended reals, for any extents.

  For an [a, b] matrix s,  m = max(s, axis=-1, keepdims=True); p = exp(s - m); p / sum(p, axis=-1, keepdims=True)  is:
  a maximum over the last axis started at minus infinity, kept as a column and spread back over the rows; a
  subtraction and an exponential; a sum over the last axis started at zero, kept as a column and spread back; a
  division; and, where a product in a narrower format follows, a narrowing, which is the identity on the extended
  reals.  Read at (r, c) the chain is
      exp (s[r, c] − max_c' s[r, c']) / Σ_c'' exp (s[r, c''] − max_c' s[r, c']).
  The same function is written once over plain matrices (`rowMax`, `expShift`, `softmax`), so that the other side of
  a comparison can be shown equal to it too; a host program that takes the row maximum once more against minus
  infinity changes nothing (`max_fold_max`).
-/
import proofs.«135135_j1846835938037_2_alg».proof.Proof.LibKeepdims
import proofs.«135135_j1846835938037_2_alg».proof.Proof.LibUnitAxes

noncomputable section

open scoped BigOperators

namespace Cert.LibSoftmaxRows

open Idealize.ShloMosaic Idealize.ShloMosaic.ValueIdx

/-- An a × b matrix of extended reals. -/
abbrev Mat (a b : ℕ) : Type := Fin a → Fin b → EReal

/-- A rank-2 vector value as a matrix. -/
abbrev mat {a b : ℕ} {φ : FTy} (v : FVec Ideal ⟨2, ![a, b]⟩ φ) : Mat a b := fun r e => v (ix2 r e)

/-- The f32 word of minus infinity, where a row maximum starts. -/
abbrev negInf : EReal := Ideal.ofBits .f32 0xFF800000#32

variable {a b : ℕ}

/-- The maximum of row r, starting from minus infinity. -/
def rowMax (s : Mat a b) (r : Fin a) : EReal := (Finset.univ : Finset (Fin b)).fold max negInf (fun c => s r c)

/-- exp (s[r, c] − max_c' s[r, c']). -/
def expShift (s : Mat a b) : Mat a b := fun r c => Ideal.exp (s r c - rowMax s r)

/-- The softmax of every row. -/
def softmax (s : Mat a b) : Mat a b := fun r c => Ideal.div (expShift s r c) (∑ c', expShift s r c')

/-- A running maximum is at least its starting value, so taking the maximum with that value again changes nothing. -/
theorem max_fold_max (z : EReal) (f : Fin b → EReal) :
    max z ((Finset.univ : Finset (Fin b)).fold max z f) = (Finset.univ : Finset (Fin b)).fold max z f :=
  max_eq_right ((Finset.le_fold_max z).2 (Or.inl le_rfl))

variable (s : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hbr : (⟨2, ![a, 1]⟩ : Shape).Broadcasts ⟨2, ![a, b]⟩) (hb : FTy.bits .bf16 < FTy.bits .f32)

/-- The row maxima (from minus infinity), kept as a column and spread back over the rows. -/
def rowMaxSpread : FVec Ideal ⟨2, ![a, b]⟩ .f32 :=
  broadcastTo ⟨2, ![a, b]⟩ (shapeCast ⟨2, ![a, 1]⟩ (multiReduction .maximumf [1] ⟨1, ![a]⟩ s 0xFF800000#32 hr (.inl rfl) rfl) hc) hbr

/-- exp (s − row maximum). -/
def expShiftVec : FVec Ideal ⟨2, ![a, b]⟩ .f32 := exp (subf s (rowMaxSpread s hr hc hbr))

/-- The exponentials divided by their row sums (from zero, kept as a column and spread back). -/
def quotVec : FVec Ideal ⟨2, ![a, b]⟩ .f32 :=
  divf (expShiftVec s hr hc hbr)
    (broadcastTo ⟨2, ![a, b]⟩ (shapeCast ⟨2, ![a, 1]⟩
      (multiReduction .add [1] ⟨1, ![a]⟩ (expShiftVec s hr hc hbr) 0x00000000#32 hr (.inl rfl) rfl) hc) hbr)

/-- The same, narrowed to bf16 for the product that follows. -/
def softmaxVec : FVec Ideal ⟨2, ![a, b]⟩ .bf16 := truncf .bf16 (quotVec s hr hc hbr) hb

theorem rowMaxSpread_apply (r : Fin a) (c : Fin b) : rowMaxSpread s hr hc hbr (ix2 r c) = rowMax (mat s) r :=
  (Cert.LibKeepdims.broadcastTo_a1_ac_apply _ hbr r c).trans
    ((Cert.LibKeepdims.shapeCast_a_a1_apply _ hc r 0).trans
      (Cert.LibUnitAxes.multiReduction_maximumf_lastAxis_apply s 0xFF800000#32 hr (.inl rfl) rfl r))

theorem expShiftVec_apply (r : Fin a) (c : Fin b) : expShiftVec s hr hc hbr (ix2 r c) = expShift (mat s) r c := by
  show Ideal.exp (s (ix2 r c) - rowMaxSpread s hr hc hbr (ix2 r c)) = _
  rw [rowMaxSpread_apply]
  rfl

theorem quotVec_apply (r : Fin a) (c : Fin b) : quotVec s hr hc hbr (ix2 r c) = softmax (mat s) r c := by
  show Ideal.div (expShiftVec s hr hc hbr (ix2 r c))
      (broadcastTo ⟨2, ![a, b]⟩ (shapeCast ⟨2, ![a, 1]⟩
        (multiReduction .add [1] ⟨1, ![a]⟩ (expShiftVec s hr hc hbr) 0x00000000#32 hr (.inl rfl) rfl) hc) hbr (ix2 r c)) = _
  rw [Cert.LibKeepdims.rowSum_keepdims_broadcast_apply (expShiftVec s hr hc hbr) 0x00000000#32 hr (.inl rfl) rfl hc hbr r c,
    expShiftVec_apply]
  unfold softmax
  exact congrArg (Ideal.div (expShift (mat s) r c)) (Finset.sum_congr rfl fun f _ => expShiftVec_apply s hr hc hbr r f)

theorem softmaxVec_apply (r : Fin a) (c : Fin b) : softmaxVec s hr hc hbr hb (ix2 r c) = softmax (mat s) r c :=
  quotVec_apply s hr hc hbr r c

end Cert.LibSoftmaxRows

end
-- ==== Proof.Spec.lean ====
/-
  Multi-head attention on the extended reals, entry by entry.

  For x : [4, 2048, 1024], a weight W : [1024, 1024] stored [out, in] and a bias, a linear layer is
      linear x W bias [b, s, e] = (Σ_d x[b, s, d] · W[e, d]) + bias[e].
  With q, k, v the three projected inputs and column 64·h + d of a row read as coordinate d of head h,
      scores[b, h][s, t] = (Σ_{d < 64} q[b, s, 64h + d] · k[b, t, 64h + d]) · 1/8        (1/8 = 1/√64),
      probs[b, h]        = the softmax of every row of scores[b, h],
      ctx[b, s, e]       = Σ_t probs[b, e / 64][s, t] · v[b, t, e],
  and the result is linear ctx Wo bo.  Every sum is over a fixed finite index set and every product is written in
  one order, so two programs that compute these sums term by term agree with this function without any appeal to
  finiteness of the inputs.
-/
import proofs.«135135_j1846835938037_2_alg».proof.Proof.LibSoftmaxRows
import Idealize.ShloMosaic.Lib.ValueIdx
import Idealize.ShloMosaic.PureOps.Ideal

noncomputable section

open scoped BigOperators

namespace Cert.Attn

open Idealize.ShloMosaic Idealize.ShloMosaic.ValueIdx

/-- A [4, 2048, 1024] array by coordinates. -/
abbrev Arr : Type := Fin 4 → Fin 2048 → Fin 1024 → EReal
/-- A [1024, 1024] weight by coordinates, [out, in]. -/
abbrev Wt : Type := Fin 1024 → Fin 1024 → EReal
/-- A [1024] bias by its coordinate. -/
abbrev Bias : Type := Fin 1024 → EReal

/-- y[b, s, e] = (Σ_d x[b, s, d] · W[e, d]) + bias[e]. -/
def linear (x : Arr) (W : Wt) (bias : Bias) : Arr := fun b s e => (∑ d : Fin 1024, x b s d * W e d) + bias e

/-- Column 64·h + d: coordinate d of head h. -/
def col (h : Fin 16) (d : Fin 64) : Fin 1024 := ⟨64 * h.val + d.val, by omega⟩

/-- The head a column belongs to. -/
def headOf (e : Fin 1024) : Fin 16 := ⟨e.val / 64, by omega⟩

theorem headOf_col (h : Fin 16) (d : Fin 64) : headOf (col h d) = h :=
  Fin.ext (by show (64 * h.val + d.val) / 64 = h.val; omega)

/-- The scaled scores of batch b, head h: a 2048 × 2048 matrix, rows the queries and columns the keys. -/
def scores (q k : Arr) (b : Fin 4) (h : Fin 16) : Cert.LibSoftmaxRows.Mat 2048 2048 :=
  fun s t => (∑ d : Fin 64, q b s (col h d) * k b t (col h d)) * (((1 / 8 : ℝ) : ℝ) : EReal)

/-- The attention weights: the softmax of every row of the scores. -/
def probs (q k : Arr) (b : Fin 4) (h : Fin 16) : Cert.LibSoftmaxRows.Mat 2048 2048 :=
  Cert.LibSoftmaxRows.softmax (scores q k b h)

/-- The heads' outputs laid side by side: entry e of a row belongs to head e / 64. -/
def ctx (q k v : Arr) : Arr := fun b s e => ∑ t : Fin 2048, probs q k b (headOf e) s t * v b t e

/-- Multi-head attention with its four linear layers. -/
def attn (xq xk xv : Arr) (Wq : Wt) (bq : Bias) (Wk : Wt) (bk : Bias) (Wv : Wt) (bv : Bias) (Wo : Wt) (bo : Bias) : Arr :=
  linear (ctx (linear xq Wq bq) (linear xk Wk bk) (linear xv Wv bv)) Wo bo

/-- A rank-3 array value by coordinates. -/
abbrev arr (x : (⟨3, ![4, 2048, 1024]⟩ : Shape).Idx → EReal) : Arr := fun b s d => x (ix3 b s d)
/-- A weight matrix value by coordinates. -/
abbrev wt (w : (⟨2, ![1024, 1024]⟩ : Shape).Idx → EReal) : Wt := fun e d => w (ix2 e d)
/-- A bias vector value by its coordinate. -/
abbrev bias (v : (⟨1, ![1024]⟩ : Shape).Idx → EReal) : Bias := fun e => v (ix1 e)

/-- The whole result array as one function of the eleven argument arrays, index by index. -/
def G (x0 x1 x2 : (⟨3, ![4, 2048, 1024]⟩ : Shape).Idx → EReal) (x3 : (⟨2, ![1024, 1024]⟩ : Shape).Idx → EReal)
    (x4 : (⟨1, ![1024]⟩ : Shape).Idx → EReal) (x5 : (⟨2, ![1024, 1024]⟩ : Shape).Idx → EReal)
    (x6 : (⟨1, ![1024]⟩ : Shape).Idx → EReal) (x7 : (⟨2, ![1024, 1024]⟩ : Shape).Idx → EReal)
    (x8 : (⟨1, ![1024]⟩ : Shape).Idx → EReal) (x9 : (⟨2, ![1024, 1024]⟩ : Shape).Idx → EReal)
    (x10 : (⟨1, ![1024]⟩ : Shape).Idx → EReal) : (⟨3, ![4, 2048, 1024]⟩ : Shape).Idx → EReal :=
  fun i => attn (arr x0) (arr x1) (arr x2) (wt x3) (bias x4) (wt x5) (bias x6) (wt x7) (bias x8) (wt x9) (bias x10) (i 0) (i 1) (i 2)

/-- The f32 word 0x3E000000 is 1/8. -/
theorem ofBits_eighth : Ideal.ofBits .f32 0x3E000000#32 = (((1 / 8 : ℝ) : ℝ) : EReal) := by
  simp [Ideal.ofBits, Ideal.ieee, -EReal.coe_mul]; norm_num

/-- The f32 word 0x42800000 is 64. -/
theorem ofBits_64 : Ideal.ofBits .f32 0x42800000#32 = ((64 : ℝ) : EReal) := by
  simp [Ideal.ofBits, Ideal.ieee, -EReal.coe_mul]; norm_num

/-- Dividing by the square root of 64 is multiplying by 1/8, on every extended real. -/
theorem div_sqrt_64 (x : EReal) : Ideal.div x (Ideal.sqrt (Ideal.ofBits .f32 0x42800000#32)) = x * (((1 / 8 : ℝ) : ℝ) : EReal) := by
  have h8 : Real.sqrt 64 = 8 := by
    rw [show (64 : ℝ) = 8 ^ 2 by norm_num]; exact Real.sqrt_sq (by norm_num)
  rw [ofBits_64, Ideal.sqrt_coe, if_neg (by norm_num), h8]
  exact Ideal.div_coe (by norm_num) x

end Cert.Attn

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibIndexReads.lean ====
/-
  Vector and layout operations read at an index, for any extents.

  Each lemma names the one entry of the operand that an operation's result holds at a given entry, the indices written
  by their coordinates:
    * the logistic function, lane by lane;
    * a matrix product [M, K] × [N, K] with the right operand contracted on its LAST axis, into the zero accumulator:
      entry (r, e) is Σ_k lhs[r, k] · rhs[e, k];
    * a float sum over the LEADING axis of an [a, b, c] array: entry (i, j) is Σ_f src[f, i, j];
    * an array [1, b, c] broadcast along its unit axis to [a, b, c];
    * a matrix reshaped to a matrix, an [a, b, 1, 1] tensor flattened to a matrix, a vector folded into a matrix: the entry
      with the same row-major position;
    * the transpose with permutation [2, 3, 0, 1] of a rank-4 tensor: the two leading axes swapped with the two
      trailing ones.
-/
import Idealize.ShloMosaic.Lib.ValueLayout
import Idealize.ShloMosaic.Lib.Pipeline.Value
import Idealize.ShloMosaic.PureOps.Ideal.Laws

noncomputable section

open scoped BigOperators

namespace Cert.LibIndexReads

open Idealize.ShloMosaic Idealize.ShloMosaic.ValueIdx

variable {α : Type}

/-- The logistic function applied lane by lane. -/
theorem logistic_apply {s : Shape} {φ : FTy} (x : FVec Ideal s φ) (i : s.Idx) : logistic x i = Ideal.logistic (x i) := rfl

/-- Entry (r, e) of an [M, K] × [N, K] product contracted on both last axes, into the zero accumulator, is
    Σ_k lhs[r, k] · rhs[e, k]. -/
theorem matmul_transposedRhs_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (r : Fin M) (e : Fin N) :
    FloatOps.matmul d prec lhs rhs (constant ⟨2, ![M, N]⟩ .f32 0x00000000#32) (ix2 r e)
      = ∑ k : Fin K, lhs (ix2 r k) * rhs (ix2 e k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r e) ((contrEquiv1 (DotDims.transposedRhs M K N) K rfl rfl).symm k) = ix2 r k :=
    funext fun a => Fin.ext (by
      match a with
      | ⟨0, _⟩ => rfl
      | ⟨1, _⟩ => exact hk)
  have er : (DotDims.transposedRhs M K N).rhsIdx (ix2 r e) ((contrEquiv1 (DotDims.transposedRhs M K N) K rfl rfl).symm k) = ix2 e k :=
    funext fun a => Fin.ext (by
      match a with
      | ⟨0, _⟩ => rfl
      | ⟨1, _⟩ => exact hk)
  rw [el, er]

/-- A float sum over the leading axis of an [a, b, c] array reads, at (i, j), the sum over f of the entries (f, i, j). -/
theorem multiReduction_add_axis0_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (i : Fin b) (j : Fin c) :
    multiReduction .add [0] ⟨2, ![b, c]⟩ src acc h hφ hacc (ix2 i j) = ∑ f : Fin a, src (ix3 f i j) := by
  refine (Ideal.multiReduction_add_single src acc h hφ hacc (ix2 i j)).trans ?_
  exact Finset.sum_congr rfl fun f _ => congrArg src (funext fun d => Fin.ext (by
    match d with
    | ⟨0, _⟩ => rfl
    | ⟨1, _⟩ => rfl
    | ⟨2, _⟩ => rfl))

/-- A [1, b, c] array broadcast to [a, b, c] reads, at (p, i, j), the operand's one slab at (i, j). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An [r, l] matrix reshaped to [s, c] reads, at (i, j), the operand at the entry with the same row-major position. -/
theorem shapeCast_matrix_apply {r l s c : ℕ} (x : (⟨2, ![r, l]⟩ : Shape).Idx → α)
    (h : (⟨2, ![r, l]⟩ : Shape).ShapeCasts ⟨2, ![s, c]⟩) (i : Fin s) (j : Fin c) (i' : Fin r) (j' : Fin l)
    (hk : i'.val * l + j'.val = i.val * c + j.val) :
    shapeCast ⟨2, ![s, c]⟩ x h (ix2 i j) = x (ix2 i' j') :=
  shapeCast_apply x h _ _ (by
    rw [Shape.rowMajor_val_two, Shape.rowMajor_val_two]
    exact hk)

/-- An [a, b, 1, 1] tensor reshaped to a matrix reads, at an entry whose row-major position is s·b + k, entry (s, k, 0, 0). -/
theorem shapeCast_ab11_matrix_apply {a b r l : ℕ} (x : (⟨4, ![a, b, 1, 1]⟩ : Shape).Idx → α)
    (h : (⟨4, ![a, b, 1, 1]⟩ : Shape).ShapeCasts ⟨2, ![r, l]⟩) (i : Fin r) (j : Fin l) (s : Fin a) (k : Fin b)
    (hk : s.val * b + k.val = i.val * l + j.val) :
    shapeCast ⟨2, ![r, l]⟩ x h (ix2 i j) = x (ix4 s k (0 : Fin 1) (0 : Fin 1)) :=
  shapeCast_apply x h _ _ (by
    rw [Shape.rowMajor_val_four, Shape.rowMajor_val_two]
    show ((s.val * b + k.val) * 1 + 0) * 1 + 0 = i.val * l + j.val
    omega)

/-- A vector folded into a matrix reads, at an entry whose row-major position is k, entry k. -/
theorem shapeCast_vec_matrix_apply {a r l : ℕ} (x : (⟨1, ![a]⟩ : Shape).Idx → α)
    (h : (⟨1, ![a]⟩ : Shape).ShapeCasts ⟨2, ![r, l]⟩) (i : Fin r) (j : Fin l) (k : Fin a)
    (hk : k.val = i.val * l + j.val) :
    shapeCast ⟨2, ![r, l]⟩ x h (ix2 i j) = x (ix1 k) :=
  shapeCast_apply x h _ _ (by
    rw [Shape.rowMajor_val_one, Shape.rowMajor_val_two]
    exact hk)

/-- The transpose with permutation [2, 3, 0, 1] of an [a, b, c, d] tensor reads, at (i, j, n, k), entry (n, k, i, j). -/
theorem transpose_2301_apply {a b c d : ℕ} (x : (⟨4, ![a, b, c, d]⟩ : Shape).Idx → α)
    (h : (⟨4, ![a, b, c, d]⟩ : Shape).Transposes [2, 3, 0, 1] ⟨4, ![c, d, a, b]⟩)
    (i : Fin c) (j : Fin d) (n : Fin a) (k : Fin b) :
    transpose ⟨4, ![c, d, a, b]⟩ [2, 3, 0, 1] x h (ix4 i j n k) = x (ix4 n k i j) :=
  transpose_apply _ x h _ _ (fun e => by
    match e with
    | ⟨0, _⟩ => rfl
    | ⟨1, _⟩ => rfl
    | ⟨2, _⟩ => rfl
    | ⟨3, _⟩ => rfl)

end Cert.LibIndexReads

end
-- ==== Proof.LibLeadingAxes.lean ====
/-
  Layout operations that merge or split the two leading axes of an array, read at an index, for any extents.

  A kernel that treats a block `[a, b, c]` as a matrix of `a * b` rows casts it to `[a * b, c]`; row-major order
  keeps every element in place, so row `p * b + q` of the matrix is the pair `(p, q)` of the block. The same holds in
  the other direction (`[a * b, c] → [a, b, c]`) and for a vector split in two (`[a * b] → [a, b]`). Two more
  operations spell `x[..., None]` spread along a new last axis: a cast `[a, b] → [a, b, 1]` and a broadcast
  `[a, b, 1] → [a, b, c]`; read at `(p, q, e)` both give the operand at `(p, q)`. The row count is a parameter `n`
  with the row's position `r = p * b + q` as a hypothesis, so the lemmas apply to literal extents without
  arithmetic in the types.
-/
import Idealize.ShloMosaic.Lib.ValueLayout

noncomputable section

namespace Cert.LibLeadingAxes

open Idealize.ShloMosaic Idealize.ShloMosaic.ValueIdx

variable {α : Type}

/-- A block `[a, b, c]` cast to `[n, c]` reads, at row `r = p * b + q` and column `e`, the block at `(p, q, e)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (e : Fin c) (r : Fin n)
    (hr : r.val = p.val * b + q.val) : shapeCast ⟨2, ![n, c]⟩ x h (ix2 r e) = x (ix3 p q e) :=
  shapeCast_apply x h _ _ (by
    rw [Shape.rowMajor_val_three, Shape.rowMajor_val_two]
    show (p.val * b + q.val) * c + e.val = r.val * c + e.val
    rw [hr])

/-- A matrix `[n, c]` cast to `[a, b, c]` reads, at `(p, q, e)`, the matrix at row `r = p * b + q` and column `e`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (e : Fin c) (r : Fin n)
    (hr : r.val = p.val * b + q.val) : shapeCast ⟨3, ![a, b, c]⟩ x h (ix3 p q e) = x (ix2 r e) :=
  shapeCast_apply x h _ _ (by
    rw [Shape.rowMajor_val_three, Shape.rowMajor_val_two]
    show r.val * c + e.val = (p.val * b + q.val) * c + e.val
    rw [hr])

/-- A vector `[n]` cast to `[a, b]` reads, at `(p, q)`, the vector at position `r = p * b + q`. -/
theorem shapeCast_n_ab_apply {a b n : ℕ} (x : (⟨1, ![n]⟩ : Shape).Idx → α)
    (h : (⟨1, ![n]⟩ : Shape).ShapeCasts ⟨2, ![a, b]⟩) (p : Fin a) (q : Fin b) (r : Fin n)
    (hr : r.val = p.val * b + q.val) : shapeCast ⟨2, ![a, b]⟩ x h (ix2 p q) = x (ix1 r) :=
  shapeCast_apply x h _ _ (by
    rw [Shape.rowMajor_val_two, Shape.rowMajor_val_one]
    show r.val = p.val * b + q.val
    exact hr)

/-- A matrix `[a, b]` cast to `[a, b, 1]` reads, at `(p, q, u)`, the matrix at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An array `[a, b, 1]` broadcast to `[a, b, c]` reads, at `(p, q, e)`, its one entry of the pair `(p, q)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if (1 : ℕ) = 1 then 0 else e.val
    rw [if_pos rfl]

end Cert.LibLeadingAxes

end
-- ==== Proof.AttnHead.lean ====
/-
  One attention head of the fused kernel body, read at an entry.

  The body holds a [256, 1024] block q of projected queries and the whole [2048, 1024] projected keys k and values v of
  one batch element.  Head h uses columns 64h … 64h + 63 of each.  Its scores are the [256, 64] × [2048, 64] product
  contracted on the 64 columns, times the word 0x3E000000 (which is 1/8); the weights are the softmax of every row
  of the scores; the head's output is the [256, 2048] × [2048, 64] product of the weights with the head's columns of v.
  Read at (i, d) that is
      Σ_t softmax(S_h)[i, t] · v[t, 64h + d],     S_h[i, t] = (Σ_{d'} q[i, 64h + d'] · k[t, 64h + d']) · 1/8.
  The last step of the body multiplies the [256, 1024] matrix of all heads' outputs side by side by a [1024, 1024]
  weight and adds a bias row: read at (0, i, e) of the [1, 256, 1024] stored block, (Σ_d c[i, d] · w[d, e]) + bias[e].
-/
import proofs.«135135_j1846835938037_2_alg».proof.Proof.Gen.KernelIdeal.Skeleton
import proofs.«135135_j1846835938037_2_alg».proof.Proof.Spec
import proofs.«135135_j1846835938037_2_alg».proof.Proof.LibPlainMatmul
import proofs.«135135_j1846835938037_2_alg».proof.Proof.LibIndexReads
import proofs.«135135_j1846835938037_2_alg».proof.Proof.LibLeadingAxes
import Idealize.ShloMosaic.Lib.ValueLayout
import Idealize.ShloMosaic.Lib.Pipeline.Value

noncomputable section

open scoped BigOperators

namespace Cert.KernelIdeal.AttnValue

open Cert.KernelIdeal Cert.KernelIdeal.Gen
open Idealize.ShloMosaic Idealize.ShloMosaic.ValueIdx Cert.LibSoftmaxRows Cert.Attn

/-- The slice offsets of head h: row 0, column 64·h. -/
def hoff (h : Fin 16) : Fin 2 → Nat := ![0, 64 * h.val]

theorem slq (h : Fin 16) : S256x1024.Slices (hoff h) S256x64 :=
  ⟨rfl, fun a => by
    match a with
    | ⟨0, _⟩ => show 0 + 256 ≤ 256; omega
    | ⟨1, _⟩ => show 64 * h.val + 64 ≤ 1024; have := h.isLt; omega⟩

theorem slk (h : Fin 16) : S2048x1024.Slices (hoff h) S2048x64 :=
  ⟨rfl, fun a => by
    match a with
    | ⟨0, _⟩ => show 0 + 2048 ≤ 2048; omega
    | ⟨1, _⟩ => show 64 * h.val + 64 ≤ 1024; have := h.isLt; omega⟩

/-- Head h's scaled scores, as the body's vector operations. -/
def scoreVec (h : Fin 16) (q : FVec Ideal S256x1024 .bf16) (k : FVec Ideal S2048x1024 .bf16) : FVec Ideal S256x2048 .f32 :=
  mulf (matmul dot_S256x64_S2048x64_S256x2048_1_1_0_0_n_n none (extractStridedSlice S256x64 (hoff h) q (slq h))
      (extractStridedSlice S2048x64 (hoff h) k (slk h)) (constant S256x2048 .f32 0x00000000#32))
    (broadcast S256x2048 (Scalar.ofBits .f32 0x3E000000#32))

/-- Head h's output, as the body's vector operations. -/
def headVec (h : Fin 16) (q : FVec Ideal S256x1024 .bf16) (k v : FVec Ideal S2048x1024 .bf16) : FVec Ideal S256x64 .f32 :=
  matmul dot_S256x2048_S2048x64_S256x64_1_0_0_1_n_n none
    (softmaxVec (scoreVec h q k) reduces_S256x2048_S256 shapeCasts_S256_S256x1 broadcasts_S256x1_S256x2048 bitsLt_bf16_f32)
    (extractStridedSlice S2048x64 (hoff h) v (slk h)) (constant S256x64 .f32 0x00000000#32)

/-- Head h's scaled scores as a plain matrix of the block's entries. -/
def blockScores (h : Fin 16) (q : S256x1024.Idx → EReal) (k : S2048x1024.Idx → EReal) : Mat 256 2048 :=
  fun i t => (∑ d : Fin 64, q (ix2 i (col h d)) * k (ix2 t (col h d))) * (((1 / 8 : ℝ) : ℝ) : EReal)

theorem scoreVec_apply (h : Fin 16) (q : FVec Ideal S256x1024 .bf16) (k : FVec Ideal S2048x1024 .bf16) (i : Fin 256) (t : Fin 2048) :
    scoreVec h q k (ix2 i t) = blockScores h q k i t := by
  show FloatOps.matmul dot_S256x64_S2048x64_S256x2048_1_1_0_0_n_n none (extractStridedSlice S256x64 (hoff h) q (slq h))
      (extractStridedSlice S2048x64 (hoff h) k (slk h)) (constant S256x2048 .f32 0x00000000#32) (ix2 i t)
      * Ideal.ofBits .f32 0x3E000000#32 = _
  rw [Cert.LibIndexReads.matmul_transposedRhs_zero_apply dot_S256x64_S2048x64_S256x2048_1_1_0_0_n_n rfl none, ofBits_eighth]
  unfold blockScores
  refine congrArg (· * _) (Finset.sum_congr rfl fun d _ => ?_)
  exact congrArg₂ (· * ·) (slice2_axis1_apply (64 * h.val) q (slq h) i d (col h d) rfl)
    (slice2_axis1_apply (64 * h.val) k (slk h) t d (col h d) rfl)

theorem headVec_apply (h : Fin 16) (q : FVec Ideal S256x1024 .bf16) (k v : FVec Ideal S2048x1024 .bf16) (i : Fin 256) (d : Fin 64) :
    headVec h q k v (ix2 i d) = ∑ t : Fin 2048, softmax (blockScores h q k) i t * v (ix2 t (col h d)) := by
  refine (matmul_plain_zero_apply dot_S256x2048_S2048x64_S256x64_1_0_0_1_n_n rfl none _ _ i d).trans ?_
  refine Finset.sum_congr rfl fun t _ => ?_
  refine congrArg₂ (· * ·) ?_ (slice2_axis1_apply (64 * h.val) v (slk h) t d (col h d) rfl)
  rw [softmaxVec_apply,
    show mat (scoreVec h q k) = blockScores h q k from funext fun r => funext fun c => scoreVec_apply h q k r c]

/-- The output projection of the body read at an entry of the stored block. -/
theorem outProj_apply (c : FVec Ideal S256x1024 .f32) (w : Vec Ideal S1024x1024 .bf16) (bvec : Vec Ideal S1024 .f32)
    (i : Fin 256) (e : Fin 1024) :
    k3_pay2 c w bvec (ix3 (0 : Fin 1) i e) = (∑ d : Fin 1024, c (ix2 i d) * w (ix2 d e)) + bvec (ix1 e) := by
  unfold k3_pay2
  rw [shapeCast_ab_1ab_apply]
  show (FloatOps.matmul (F := Ideal) dot_S256x1024_S1024x1024_S256x1024_1_0_0_1_n_n none (truncf .bf16 c bitsLt_bf16_f32)
        (shapeCast S1024x1024 w shapeCasts_S1024x1024_S1024x1024) (constant S256x1024 .f32 0x00000000#32) (ix2 i e) : EReal)
      + (broadcastTo S256x1024 (shapeCast S1x1024 bvec shapeCasts_S1024_S1x1024) broadcasts_S1x1024_S256x1024 (ix2 i e) : EReal) = _
  rw [matmul_plain_zero_apply dot_S256x1024_S1024x1024_S256x1024_1_0_0_1_n_n rfl none, broadcastTo_1b_ab_apply, shapeCast_a_1a_apply]
  refine congrArg (· + _) (Finset.sum_congr rfl fun d _ => ?_)
  rw [shapeCast_self]
  rfl

end Cert.KernelIdeal.AttnValue

end
-- ==== Proof.AttnPieces.lean ====
/-
  The sixteen heads of the fused kernel body are one function of the head's number.

  The body is written out head by head; each head's output, however the text is cut into named pieces, is by
  unfolding the same chain of vector operations (slice the head's 64 columns, scores, softmax of the rows, product
  with the head's columns of the values) at the column offset 64·h.  The three whole blocks the heads slice are the
  loaded [1, 256, 1024] and [1, 2048, 1024] blocks with the unit axis dropped.
-/
import proofs.«135135_j1846835938037_2_alg».proof.Proof.AttnHead

set_option maxRecDepth 16384

noncomputable section

namespace Cert.KernelIdeal.AttnValue

open Cert.KernelIdeal Cert.KernelIdeal.Gen Cert.KernelIdeal.Facts₀
open Idealize.ShloMosaic Idealize.ShloMosaic.ValueIdx

variable (x0 : Vec Ideal S1x256x1024 .bf16) (x1 x2 : Vec Ideal S1x2048x1024 .bf16)

theorem piece0 : k3_pay6 x0 x1 x2 = headVec (0 : Fin 16) (k3_pay3 x0) (k3_pay4 x1) (k3_pay5 x2) := rfl
theorem piece1 : k3_pay9 (k3_pay7 x2) (k3_pay8 x0 x1) (constant S256x64 .f32 0x00000000#32) = headVec (1 : Fin 16) (k3_pay3 x0) (k3_pay4 x1) (k3_pay5 x2) := rfl
theorem piece2 : k3_pay10 (k3_pay3 x0) (k3_pay4 x1) (k3_pay5 x2) = headVec (2 : Fin 16) (k3_pay3 x0) (k3_pay4 x1) (k3_pay5 x2) := rfl
theorem piece3 : k3_pay11 (k3_pay3 x0) (k3_pay4 x1) (k3_pay5 x2) = headVec (3 : Fin 16) (k3_pay3 x0) (k3_pay4 x1) (k3_pay5 x2) := rfl
theorem piece4 : k3_pay14 (k3_pay12 (k3_pay5 x2)) (k3_pay13 (k3_pay3 x0) (k3_pay4 x1)) = headVec (4 : Fin 16) (k3_pay3 x0) (k3_pay4 x1) (k3_pay5 x2) := rfl
theorem piece5 : k3_pay15 (k3_pay3 x0) (k3_pay4 x1) (k3_pay5 x2) = headVec (5 : Fin 16) (k3_pay3 x0) (k3_pay4 x1) (k3_pay5 x2) := rfl
theorem piece6 : k3_pay16 (k3_pay3 x0) (k3_pay4 x1) (k3_pay5 x2) = headVec (6 : Fin 16) (k3_pay3 x0) (k3_pay4 x1) (k3_pay5 x2) := rfl
theorem piece7 : k3_pay19 (k3_pay17 (k3_pay5 x2)) (k3_pay18 (k3_pay3 x0) (k3_pay4 x1)) = headVec (7 : Fin 16) (k3_pay3 x0) (k3_pay4 x1) (k3_pay5 x2) := rfl
theorem piece8 : k3_pay20 (k3_pay3 x0) (k3_pay4 x1) (k3_pay5 x2) = headVec (8 : Fin 16) (k3_pay3 x0) (k3_pay4 x1) (k3_pay5 x2) := rfl
theorem piece9 : k3_pay21 (k3_pay3 x0) (k3_pay4 x1) (k3_pay5 x2) = headVec (9 : Fin 16) (k3_pay3 x0) (k3_pay4 x1) (k3_pay5 x2) := rfl
theorem piece10 : k3_pay25 (k3_pay22 (k3_pay3 x0)) (k3_pay23 (k3_pay4 x1)) (k3_pay24 (k3_pay5 x2)) = headVec (10 : Fin 16) (k3_pay3 x0) (k3_pay4 x1) (k3_pay5 x2) := rfl
theorem piece11 : k3_pay26 (k3_pay3 x0) (k3_pay4 x1) (k3_pay5 x2) = headVec (11 : Fin 16) (k3_pay3 x0) (k3_pay4 x1) (k3_pay5 x2) := rfl
theorem piece12 : k3_pay29 (k3_pay27 (k3_pay5 x2)) (k3_pay28 (k3_pay3 x0) (k3_pay4 x1)) = headVec (12 : Fin 16) (k3_pay3 x0) (k3_pay4 x1) (k3_pay5 x2) := rfl
theorem piece13 : k3_pay30 (k3_pay3 x0) (k3_pay4 x1) (k3_pay5 x2) = headVec (13 : Fin 16) (k3_pay3 x0) (k3_pay4 x1) (k3_pay5 x2) := rfl
theorem piece14 : k3_pay31 (k3_pay3 x0) (k3_pay4 x1) (k3_pay5 x2) = headVec (14 : Fin 16) (k3_pay3 x0) (k3_pay4 x1) (k3_pay5 x2) := rfl
theorem piece15 : k3_pay1 (k3_pay32 (k3_pay5 x2)) (k3_pay33 (k3_pay3 x0) (k3_pay4 x1)) = headVec (15 : Fin 16) (k3_pay3 x0) (k3_pay4 x1) (k3_pay5 x2) := rfl

end Cert.KernelIdeal.AttnValue

end
-- ==== Proof.AttnBlock.lean ====
/-
  What one grid point of the fused attention region leaves in its output block, entry by entry.

  The sixteen heads' outputs are laid side by side along the columns: column e of the [256, 1024] matrix belongs to
  head e / 64 and is that head's column e mod 64, so entry (i, e) is  Σ_t softmax(S_{e/64})[i, t] · v[t, e].
  The stored [1, 256, 1024] block is that matrix times the [1024, 1024] weight plus the bias row:
      block[0, i, e] = (Σ_d (Σ_t softmax(S_{d/64})[i, t] · v[t, d]) · w[d, e]) + bias[e],
  with q, k, v the three loaded blocks with their unit axis dropped.
-/
import proofs.«135135_j1846835938037_2_alg».proof.Proof.Gen.KernelIdeal.Frame
import proofs.«135135_j1846835938037_2_alg».proof.Proof.AttnPieces

set_option maxRecDepth 16384

noncomputable section

open scoped BigOperators

namespace Cert.KernelIdeal.AttnValue

open Cert.KernelIdeal Cert.KernelIdeal.Gen
open Idealize.ShloMosaic Idealize.ShloMosaic.ValueIdx Cert.LibSoftmaxRows Cert.Attn

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

section Heads

variable (q : FVec Ideal S256x1024 .bf16) (k v : FVec Ideal S2048x1024 .bf16)

theorem cat_ok : Shape.Concatenates
    ((List.ofFn fun h : Fin 16 => (⟨S256x64, headVec h q k v⟩ : (s : Shape) × (s.Idx → Ideal .f32))).map (·.1)) S256x1024 1 :=
  concatenates_S256x64_S256x64_S256x64_S256x64_S256x64_S256x64_S256x64_S256x64_S256x64_S256x64_S256x64_S256x64_S256x64_S256x64_S256x64_S256x64_S256x1024_d1

/-- The sixteen heads' outputs side by side. -/
def ctxVec : FVec Ideal S256x1024 .f32 :=
  concatenate S256x1024 1 (List.ofFn fun h : Fin 16 => (⟨S256x64, headVec h q k v⟩ : (s : Shape) × (s.Idx → Ideal .f32)))
    (cat_ok q k v)

theorem col_headOf (e : Fin 1024) : col (headOf e) ⟨e.val % 64, Nat.mod_lt _ (by norm_num)⟩ = e :=
  Fin.ext (by show 64 * (e.val / 64) + e.val % 64 = e.val; exact Nat.div_add_mod _ _)

theorem ctxVec_apply (i : Fin 256) (e : Fin 1024) :
    ctxVec q k v (ix2 i e) = ∑ t : Fin 2048, softmax (blockScores (headOf e) q k) i t * v (ix2 t e) := by
  unfold ctxVec
  refine (concatenate_ofFn_apply (t := S256x1024) (s₁ := S256x64) (1 : Fin 2) (fun h : Fin 16 => headVec h q k v) (cat_ok q k v) rfl 64 rfl (ix2 i e)
    (headOf e) rfl (ix2 i ⟨e.val % 64, Nat.mod_lt _ (by norm_num)⟩) rfl (fun b hb => ?_)).trans ?_
  · match b with
    | ⟨0, _⟩ => rfl
    | ⟨1, _⟩ => exact absurd rfl hb
  · rw [headVec_apply, col_headOf]

end Heads

section Block

variable (x0 : Vec Ideal S1x256x1024 .bf16) (x1 x2 : Vec Ideal S1x2048x1024 .bf16) (x3 : Vec Ideal S1024x1024 .bf16)
  (x4 : Vec Ideal S1024 .f32)

/-- The output block is the output projection of the heads' outputs side by side. -/
theorem out3_5_eq : out3_5 x0 x1 x2 x3 x4 = k3_pay2 (ctxVec (k3_pay3 x0) (k3_pay4 x1) (k3_pay5 x2)) x3 x4 := by
  unfold out3_5
  rw [View.canon_unit_zero hz3]
  rw [View.ld_unit_zero (S := S1x256x1024) hz3, View.ld_unit_zero (S := S1x2048x1024) hz3,
    View.ld_unit_zero (S := S1x2048x1024) hz3, View.ld_unit_zero (S := S1024x1024) hz2, View.ld_unit_zero (S := S1024) hz1]
  rw [piece0 x0 x1 x2, piece1 x0 x1 x2, piece2 x0 x1 x2, piece3 x0 x1 x2, piece4 x0 x1 x2, piece5 x0 x1 x2, piece6 x0 x1 x2, piece7 x0 x1 x2, piece8 x0 x1 x2, piece9 x0 x1 x2, piece10 x0 x1 x2, piece11 x0 x1 x2, piece12 x0 x1 x2, piece13 x0 x1 x2, piece14 x0 x1 x2, piece15 x0 x1 x2]
  rfl

/-- The output block at an entry. -/
theorem out3_5_apply (i : Fin 256) (e : Fin 1024) :
    out3_5 x0 x1 x2 x3 x4 (ix3 (0 : Fin 1) i e)
      = (∑ d : Fin 1024, (∑ t : Fin 2048, softmax (blockScores (headOf d) (k3_pay3 x0) (k3_pay4 x1)) i t * k3_pay5 x2 (ix2 t d))
          * x3 (ix2 d e)) + x4 (ix1 e) := by
  rw [out3_5_eq, outProj_apply]
  refine congrArg (· + _) (Finset.sum_congr rfl fun d _ => ?_)
  rw [ctxVec_apply]

end Block

end Cert.KernelIdeal.AttnValue

end
-- ==== Proof.AttnRegion.lean ====
/-
  The fused attention region, from blocks to the whole result array.

  The region runs over a 4 × 8 grid: point (b, j) reads rows 256·j … 256·j + 255 of batch element b of the projected
  queries, the whole batch element b of the projected keys and values, the whole output weight and bias, and
  writes rows 256·j … 256·j + 255 of batch element b of the result.  The softmax of a block of rows of a matrix is
  that block of the softmax of the matrix, so what a point writes is its block of one function of the five operand
  arrays,
      result[b, s, e] = (Σ_d ctx[b, s, d] · w[d, e]) + bias[e],
  with ctx the attention context of the specification.  The 32 blocks tile the result array, so the array ends
  holding that function everywhere.
-/
import proofs.«135135_j1846835938037_2_alg».proof.Proof.AttnBlock

set_option maxRecDepth 16384

noncomputable section

open scoped BigOperators

namespace Cert.KernelIdeal.AttnValue

open Cert.KernelIdeal Cert.KernelIdeal.Gen
open Idealize.ShloMosaic Idealize.ShloMosaic.TcCoe Idealize.SL.Sem Idealize.ShloMosaic.ValueIdx Cert.LibSoftmaxRows Cert.Attn
open Idealize.ShloMosaic.Pipeline (Dat)

/-- The region's result array as one function of its five operand arrays: the output projection, with the weight
    stored [in, out], of the attention context. -/
def attnArr (Q K Vv : S4x2048x1024.Idx → EReal) (Wot : S1024x1024.Idx → EReal) (bo : S1024.Idx → EReal) :
    S4x2048x1024.Idx → EReal :=
  fun j => (∑ d : Fin 1024, ctx (arr Q) (arr K) (arr Vv) (j 0) (j 1) d * Wot (ix2 d (j 2))) + bo (ix1 (j 2))

theorem pay3_apply (x0 : Vec Ideal S1x256x1024 .bf16) (i : Fin 256) (cc : Fin 1024) :
    k3_pay3 x0 (ix2 i cc) = x0 (ix3 (0 : Fin 1) i cc) := by
  unfold k3_pay3; exact shapeCast_1ab_ab_apply _ _ i cc
theorem pay4_apply (x1 : Vec Ideal S1x2048x1024 .bf16) (t : Fin 2048) (cc : Fin 1024) :
    k3_pay4 x1 (ix2 t cc) = x1 (ix3 (0 : Fin 1) t cc) := by
  unfold k3_pay4; exact shapeCast_1ab_ab_apply _ _ t cc
theorem pay5_apply (x2 : Vec Ideal S1x2048x1024 .bf16) (t : Fin 2048) (cc : Fin 1024) :
    k3_pay5 x2 (ix2 t cc) = x2 (ix3 (0 : Fin 1) t cc) := by
  unfold k3_pay5; exact shapeCast_1ab_ab_apply _ _ t cc

/-- A point's output block at an entry, when its input blocks are the rows r0 … r0 + 255 of batch element b of the
    queries, the whole batch element b of the keys and values, and the whole weight and bias. -/
theorem block_entry (Q K Vv : S4x2048x1024.Idx → EReal) (Wot : S1024x1024.Idx → EReal) (bo : S1024.Idx → EReal)
    (x0 : Vec Ideal S1x256x1024 .bf16) (x1 x2 : Vec Ideal S1x2048x1024 .bf16) (x3 : Vec Ideal S1024x1024 .bf16)
    (x4 : Vec Ideal S1024 .f32) (b : Fin 4) (r0 : Nat) (hr0 : r0 + 256 ≤ 2048)
    (h0 : ∀ (i : Fin 256) (cc : Fin 1024), x0 (ix3 (0 : Fin 1) i cc) = Q (ix3 b ⟨r0 + i.val, by omega⟩ cc))
    (h1 : ∀ (t : Fin 2048) (cc : Fin 1024), x1 (ix3 (0 : Fin 1) t cc) = K (ix3 b t cc))
    (h2 : ∀ (t : Fin 2048) (cc : Fin 1024), x2 (ix3 (0 : Fin 1) t cc) = Vv (ix3 b t cc))
    (h3 : ∀ (d e : Fin 1024), x3 (ix2 d e) = Wot (ix2 d e)) (h4 : ∀ e : Fin 1024, x4 (ix1 e) = bo (ix1 e))
    (i : Fin 256) (e : Fin 1024) :
    out3_5 x0 x1 x2 x3 x4 (ix3 (0 : Fin 1) i e) = attnArr Q K Vv Wot bo (ix3 b ⟨r0 + i.val, by omega⟩ e) := by
  rw [out3_5_apply]
  show _ = (∑ d : Fin 1024, ctx (arr Q) (arr K) (arr Vv) b ⟨r0 + i.val, by omega⟩ d * Wot (ix2 d e)) + bo (ix1 e)
  rw [h4]
  refine congrArg (· + _) (Finset.sum_congr rfl fun d _ => ?_)
  rw [h3]
  refine congrArg (· * _) ?_
  have hS : blockScores (headOf d) (k3_pay3 x0) (k3_pay4 x1)
      = fun (i' : Fin 256) (t' : Fin 2048) => scores (arr Q) (arr K) b (headOf d) ⟨r0 + i'.val, by omega⟩ t' := by
    funext i' t'
    unfold blockScores scores
    refine congrArg (· * _) (Finset.sum_congr rfl fun d' _ => ?_)
    rw [pay3_apply, pay4_apply, h0, h1]
  rw [hS]
  unfold ctx probs
  refine Finset.sum_congr rfl fun t _ => ?_
  rw [pay5_apply, h2]
  rfl

/-- The same at any index of the block. -/
theorem block_entry' (Q K Vv : S4x2048x1024.Idx → EReal) (Wot : S1024x1024.Idx → EReal) (bo : S1024.Idx → EReal)
    (x0 : Vec Ideal S1x256x1024 .bf16) (x1 x2 : Vec Ideal S1x2048x1024 .bf16) (x3 : Vec Ideal S1024x1024 .bf16)
    (x4 : Vec Ideal S1024 .f32) (b : Fin 4) (r0 : Nat) (hr0 : r0 + 256 ≤ 2048)
    (h0 : ∀ (i : Fin 256) (cc : Fin 1024), x0 (ix3 (0 : Fin 1) i cc) = Q (ix3 b ⟨r0 + i.val, by omega⟩ cc))
    (h1 : ∀ (t : Fin 2048) (cc : Fin 1024), x1 (ix3 (0 : Fin 1) t cc) = K (ix3 b t cc))
    (h2 : ∀ (t : Fin 2048) (cc : Fin 1024), x2 (ix3 (0 : Fin 1) t cc) = Vv (ix3 b t cc))
    (h3 : ∀ (d e : Fin 1024), x3 (ix2 d e) = Wot (ix2 d e)) (h4 : ∀ e : Fin 1024, x4 (ix1 e) = bo (ix1 e))
    (y : S1x256x1024.Idx) :
    out3_5 x0 x1 x2 x3 x4 y = attnArr Q K Vv Wot bo (ix3 b ⟨r0 + (y 1).val, by have h : (y 1).val < 256 := (y 1).isLt; omega⟩ (y 2)) := by
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  exact (congrArg (out3_5 x0 x1 x2 x3 x4) hy).trans (block_entry Q K Vv Wot bo x0 x1 x2 x3 x4 b r0 hr0 h0 h1 h2 h3 h4 (y 1) (y 2))

/-- The printed index maps, decided over the grid. -/
theorem idx_facts : ∀ t : Fin cfg3.N,
    win3_0.index t (0 : Fin 3) = win3_5.index t (0 : Fin 3) ∧ win3_0.index t (1 : Fin 3) = win3_5.index t (1 : Fin 3)
    ∧ win3_0.index t (2 : Fin 3) = 0
    ∧ win3_1.index t (0 : Fin 3) = win3_5.index t (0 : Fin 3) ∧ win3_1.index t (1 : Fin 3) = 0 ∧ win3_1.index t (2 : Fin 3) = 0
    ∧ win3_2.index t (0 : Fin 3) = win3_5.index t (0 : Fin 3) ∧ win3_2.index t (1 : Fin 3) = 0 ∧ win3_2.index t (2 : Fin 3) = 0
    ∧ win3_3.index t (0 : Fin 2) = 0 ∧ win3_3.index t (1 : Fin 2) = 0 ∧ win3_4.index t (0 : Fin 1) = 0
    ∧ win3_5.index t (0 : Fin 3) ≤ 3 ∧ win3_5.index t (1 : Fin 3) ≤ 7 ∧ win3_5.index t (2 : Fin 3) = 0 :=
  (by decide +kernel : ∀ t : Fin grid3.N, _)

/-- Every block of the result array is some point's. -/
theorem idx_onto : ∀ (q0 : Fin 4) (q1 : Fin 8), ∃ t : Fin cfg3.N, win3_5.index t = ![q0.val, q1.val, 0] :=
  (by decide +kernel : ∀ (q0 : Fin 4) (q1 : Fin 8), ∃ t : Fin grid3.N, win3_5.index t = ![q0.val, q1.val, 0])

variable (V : (c : Dev nD) → (b : Ref sig .tc) → Buf (Elt Ideal) ((c : Thread nD τ).loc b))

/-- What point t writes back is block t of the region's function of the operand arrays as the region finds them. -/
theorem flushed5_eq (c : Dev nD) (t : Fin cfg3.N) :
    (dat3 (F := Ideal) V c).flushed 5 t = ((cfg3.win 5).blk t).view.read (Elt Ideal)
      (attnArr (V c main_v10) (V c main_v13) (V c main_v16) (V c main_v7) (V c main_arg10)) := by
  show (cfg3.win 5).cut (grid3.coords t) ((dat3 (F := Ideal) V c).after 5 t) = _
  rw [after3_5]
  obtain ⟨e00, e01, e02, e10, e11, e12, e20, e21, e22, e30, e31, e40, b0, b1, e52⟩ := idx_facts t
  funext y
  show out3_5 (iblk3 V c 0 t) (iblk3 V c 1 t) (iblk3 V c 2 t) (iblk3 V c 3 t) (iblk3 V c 4 t) y
    = attnArr (V c main_v10) (V c main_v13) (V c main_v16) (V c main_v7) (V c main_arg10) (((cfg3.win 5).blk t).view.emb y)
  refine (block_entry' (V c main_v10) (V c main_v13) (V c main_v16) (V c main_v7) (V c main_arg10)
    (iblk3 V c 0 t) (iblk3 V c 1 t) (iblk3 V c 2 t) (iblk3 V c 3 t) (iblk3 V c 4 t)
    ⟨win3_5.index t (0 : Fin 3), by omega⟩ (win3_5.index t (1 : Fin 3) * 256) (by omega)
    (fun i cc => ?_) (fun t' cc => ?_) (fun t' cc => ?_) (fun d e => ?_) (fun e => ?_) y).trans ?_
  · show V c main_v10 (((cfg3.win 0).blk t).view.emb (ix3 (0 : Fin 1) i cc)) = _
    refine congrArg (V c main_v10) (funext fun a => Fin.ext ?_)
    match a with
    | ⟨0, _⟩ => show win3_0.index t (0 : Fin 3) * 1 + 1 * 0 = win3_5.index t (0 : Fin 3); omega
    | ⟨1, _⟩ => show win3_0.index t (1 : Fin 3) * 256 + 1 * i.val = win3_5.index t (1 : Fin 3) * 256 + i.val; omega
    | ⟨2, _⟩ => show win3_0.index t (2 : Fin 3) * 1024 + 1 * cc.val = cc.val; omega
  · show V c main_v13 (((cfg3.win 1).blk t).view.emb (ix3 (0 : Fin 1) t' cc)) = _
    refine congrArg (V c main_v13) (funext fun a => Fin.ext ?_)
    match a with
    | ⟨0, _⟩ => show win3_1.index t (0 : Fin 3) * 1 + 1 * 0 = win3_5.index t (0 : Fin 3); omega
    | ⟨1, _⟩ => show win3_1.index t (1 : Fin 3) * 2048 + 1 * t'.val = t'.val; omega
    | ⟨2, _⟩ => show win3_1.index t (2 : Fin 3) * 1024 + 1 * cc.val = cc.val; omega
  · show V c main_v16 (((cfg3.win 2).blk t).view.emb (ix3 (0 : Fin 1) t' cc)) = _
    refine congrArg (V c main_v16) (funext fun a => Fin.ext ?_)
    match a with
    | ⟨0, _⟩ => show win3_2.index t (0 : Fin 3) * 1 + 1 * 0 = win3_5.index t (0 : Fin 3); omega
    | ⟨1, _⟩ => show win3_2.index t (1 : Fin 3) * 2048 + 1 * t'.val = t'.val; omega
    | ⟨2, _⟩ => show win3_2.index t (2 : Fin 3) * 1024 + 1 * cc.val = cc.val; omega
  · show V c main_v7 (((cfg3.win 3).blk t).view.emb (ix2 d e)) = _
    refine congrArg (V c main_v7) (funext fun a => Fin.ext ?_)
    match a with
    | ⟨0, _⟩ => show win3_3.index t (0 : Fin 2) * 1024 + 1 * d.val = d.val; omega
    | ⟨1, _⟩ => show win3_3.index t (1 : Fin 2) * 1024 + 1 * e.val = e.val; omega
  · show V c main_arg10 (((cfg3.win 4).blk t).view.emb (ix1 e)) = _
    refine congrArg (V c main_arg10) (funext fun a => Fin.ext ?_)
    match a with
    | ⟨0, _⟩ => show win3_4.index t (0 : Fin 1) * 1024 + 1 * e.val = e.val; omega
  · refine congrArg (attnArr (V c main_v10) (V c main_v13) (V c main_v16) (V c main_v7) (V c main_arg10)) (funext fun a => Fin.ext ?_)
    match a with
    | ⟨0, _⟩ => show win3_5.index t (0 : Fin 3) = win3_5.index t (0 : Fin 3) * 1 + 1 * (y 0).val; have h : (y 0).val < 1 := (y 0).isLt; omega
    | ⟨1, _⟩ => show win3_5.index t (1 : Fin 3) * 256 + (y 1).val = win3_5.index t (1 : Fin 3) * 256 + 1 * (y 1).val; omega
    | ⟨2, _⟩ => show (y 2).val = win3_5.index t (2 : Fin 3) * 1024 + 1 * (y 2).val; omega

/-- An index of the result array is in point t's block iff each coordinate is in the block's range on its axis. -/
theorem mem_blk5 (t : Fin cfg3.N) (i : S4x2048x1024.Idx) :
    i ∈ ((cfg3.win 5).blk t).view.set ↔ ∀ a : Fin 3, win3_5.index t a * S1x256x1024.size a ≤ (i a).val
      ∧ (i a).val < win3_5.index t a * S1x256x1024.size a + S1x256x1024.size a := by
  show i ∈ ((View.whole main_v17).slice (win3_5.rect t)).set ↔ _
  rw [View.set_slice_whole, Rect.mem_set_unit]
  exact Iff.rfl

/-- The blocks tile the result array: row s of batch element b is in the block of point (b, s / 256). -/
theorem cover5 (i : S4x2048x1024.Idx) : ∃ t : Fin cfg3.N, (cfg3.win 5).flush t = true ∧ i ∈ ((cfg3.win 5).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win3_5.index t (0 : Fin 3) = (i 0).val := congrFun ht 0
  have q1 : win3_5.index t (1 : Fin 3) = (i 1).val / 256 := congrFun ht 1
  have q2 : win3_5.index t (2 : Fin 3) = 0 := congrFun ht 2
  refine ⟨t, flush3_5 t, ?_⟩
  rw [mem_blk5]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 256 ≤ (i 1).val ∧ (i 1).val < win3_5.index t (1 : Fin 3) * 256 + 256; omega
  | ⟨2, _⟩ => show win3_5.index t (2 : Fin 3) * 1024 ≤ (i 2).val ∧ (i 2).val < win3_5.index t (2 : Fin 3) * 1024 + 1024; omega

/-- The result array after the region: the region's function of the operand arrays as the region finds them. -/
theorem arrAt5 (c : Dev nD) : (dat3 (F := Ideal) V c).arrAt 5 cfg3.N
    = attnArr (V c main_v10) (V c main_v13) (V c main_v16) (V c main_v7) (V c main_arg10) :=
  (dat3 (F := Ideal) V c).arrAt_eq_of_cover 5 _ (fun t _ => flushed5_eq V c t) cover5

end Cert.KernelIdeal.AttnValue

end
-- ==== Proof.LibLinearBlock.lean ====
/-
  A linear layer's block read at an entry, for any extents.

  A block of a linear layer takes an [M, K] matrix x, a [K, N] matrix w and an [N] vector b, and holds
      (x · w)[p, q] + b[q]  =  (Σ_k x[p, k] · w[k, q]) + b[q].
  As vector operations this is: x and w cast to their own shapes (the identity), x narrowed to the format of w, the
  plain matrix product into the zero accumulator, b cast to one row [1, N] and that row repeated over the M rows,
  the two added entry by entry, and the sum narrowed again.  On the extended reals a change of float format is the
  identity and the zero accumulator adds nothing, so the entry is the sum above.
-/
import proofs.«135135_j1846835938037_2_alg».proof.Proof.LibPlainMatmul
import Idealize.ShloMosaic.Lib.ValueLayout
import Idealize.ShloMosaic.Lib.Pipeline.Value
import Idealize.ShloMosaic.PureOps.Ideal.Laws

noncomputable section

open scoped BigOperators

namespace Cert.LibLinearBlock

open Idealize.ShloMosaic Idealize.ShloMosaic.ValueIdx

/-- One row [1, N] made of a vector [N] and repeated over M rows reads, at (p, q), the vector at q. -/
theorem rowBroadcast_apply {α : Type} {M N : ℕ} (b : (⟨1, ![N]⟩ : Shape).Idx → α)
    (hb : (⟨1, ![N]⟩ : Shape).ShapeCasts ⟨2, ![1, N]⟩) (hbc : (⟨2, ![1, N]⟩ : Shape).Broadcasts ⟨2, ![M, N]⟩)
    (p : Fin M) (q : Fin N) :
    broadcastTo ⟨2, ![M, N]⟩ (shapeCast ⟨2, ![1, N]⟩ b hb) hbc (ix2 p q) = b (ix1 q) :=
  (broadcastTo_1b_ab_apply _ hbc p q).trans (shapeCast_a_1a_apply b hb 0 q)

/-- Entry (p, q) of a linear layer's block is (Σ_k x[p, k] · w[k, q]) + b[q]. -/
theorem linear_block_apply {M K N : ℕ} {φx φw φo : FTy}
    (d : DotDims ⟨2, ![M, K]⟩ ⟨2, ![K, N]⟩ ⟨2, ![M, N]⟩) (hd : d = DotDims.plain M K N)
    (prec : Option ContractPrecision)
    (x : FVec Ideal ⟨2, ![M, K]⟩ φx) (w : FVec Ideal ⟨2, ![K, N]⟩ φw) (b : FVec Ideal ⟨1, ![N]⟩ .f32)
    (hx : (⟨2, ![M, K]⟩ : Shape).ShapeCasts ⟨2, ![M, K]⟩) (hw : (⟨2, ![K, N]⟩ : Shape).ShapeCasts ⟨2, ![K, N]⟩)
    (hb : (⟨1, ![N]⟩ : Shape).ShapeCasts ⟨2, ![1, N]⟩) (hbc : (⟨2, ![1, N]⟩ : Shape).Broadcasts ⟨2, ![M, N]⟩)
    (hlx : φw.bits < φx.bits) (hlo : φo.bits < FTy.bits .f32) (p : Fin M) (q : Fin N) :
    (truncf φo (addf (matmul d prec (truncf φw (shapeCast ⟨2, ![M, K]⟩ x hx) hlx) (shapeCast ⟨2, ![K, N]⟩ w hw)
          (constant ⟨2, ![M, N]⟩ .f32 0x00000000#32))
        (broadcastTo ⟨2, ![M, N]⟩ (shapeCast ⟨2, ![1, N]⟩ b hb) hbc)) hlo : FVec Ideal ⟨2, ![M, N]⟩ φo) (ix2 p q)
      = (∑ k : Fin K, x (ix2 p k) * w (ix2 k q)) + b (ix1 q) := by
  rw [truncf_apply, addf_apply, rowBroadcast_apply b hb hbc p q, shapeCast_self, shapeCast_self]
  exact congrArg (· + b (ix1 q)) (matmul_plain_zero_apply d hd prec (truncf φw x hlx) w p q)

end Cert.LibLinearBlock

end
-- ==== Proof.Linear0.lean ====
/-
  Linear-layer region 0 of the idealized kernel, from its blocks to the whole array.

  The region runs one body on a grid of 8 points.  At point t the body reads rows 1024·t … 1024·t + 1023 of an
  [8192, 1024] array X (window 0), the whole [1024, 1024] matrix W (window 1) and the whole [1024] vector b
  (window 2), and stores into the same rows of the [8192, 1024] result (window 3) the block
      (x · W)[p, q] + b[q]   with x the block of X,
  the changes of float format being the identity on the extended reals.  Row r of the result lies in the block of
  point r / 1024, the eight blocks tile the result, and row p of block t of X is row 1024·t + p of X, so after the
  region the result holds, at (r, q),  (Σ_k X[r, k] · W[k, q]) + b[q]  —  whatever the three arrays held when the
  region was entered (the parameter V).
-/
import proofs.«135135_j1846835938037_2_alg».proof.Proof.Gen.KernelIdeal.Frame
import proofs.«135135_j1846835938037_2_alg».proof.Proof.LibLinearBlock
import Idealize.ShloMosaic.Lib.Pipeline.Value

set_option maxRecDepth 16384

noncomputable section

open scoped BigOperators

namespace Cert.KernelIdeal.LinearValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's block at an entry -/

/-- The product's dimension record is the plain one: left axis 1 against right axis 0, no batch axes. -/
theorem dot_plain0 : dot_S1024x1024_S1024x1024_S1024x1024_1_0_0_1_n_n = DotDims.plain 1024 1024 1024 := rfl

/-- Entry (p, q) of what the body stores, from the three blocks it loads. -/
theorem pay0_apply (v0 : Vec Ideal S1024x1024 .f32) (v3 : Vec Ideal S1024x1024 .bf16) (v6 : Vec Ideal S1024 .f32)
    (p q : Fin 1024) :
    k0_pay1 (F := Ideal) v0 v3 v6 (ix2 p q) = (∑ k : Fin 1024, v0 (ix2 p k) * v3 (ix2 k q)) + v6 (ix1 q) := by
  unfold k0_pay1
  exact Cert.LibLinearBlock.linear_block_apply dot_S1024x1024_S1024x1024_S1024x1024_1_0_0_1_n_n dot_plain0 none v0 v3 v6
    Gen.shapeCasts_S1024x1024_S1024x1024 Gen.shapeCasts_S1024x1024_S1024x1024 Gen.shapeCasts_S1024_S1x1024
    Gen.broadcasts_S1x1024_S1024x1024 Gen.bitsLt_bf16_f32 Gen.bitsLt_bf16_f32 p q

/-- The same entry when the loaded blocks are read off three arrays X, W, B: row p of the first block is row
    `i 0` of X, the other two blocks are W and B themselves, and the column `i 1` is q. -/
theorem block_entry0 (X : S8192x1024.Idx → EReal) (W : S1024x1024.Idx → EReal) (B : S1024.Idx → EReal)
    (x0 : Vec Ideal S1024x1024 .f32) (x1 : Vec Ideal S1024x1024 .bf16) (x2 : Vec Ideal S1024 .f32)
    (i : S8192x1024.Idx) (p q : Fin 1024) (hq : i 1 = q)
    (h0 : ∀ k : Fin 1024, x0 (ix2 p k) = X (ix2 (i 0) k))
    (h1 : ∀ k : Fin 1024, x1 (ix2 k q) = W (ix2 k q))
    (h2 : x2 (ix1 q) = B (ix1 q)) :
    k0_pay1 (F := Ideal) x0 x1 x2 (ix2 p q)
      = (∑ k : Fin 1024, X (ix2 (i 0) k) * W (ix2 k (i 1))) + B (ix1 (i 1)) := by
  rw [pay0_apply, h2, hq]
  exact congrArg (· + B (ix1 q)) (Finset.sum_congr rfl fun k _ => by rw [h0 k, h1 k])

/-! ## The windows' blocks as parts of their arrays -/

/-- The three arrays the region reads, as it finds them: the [8192, 1024] input, the [1024, 1024] matrix and the
    [1024] vector. -/
abbrev inX0 (c : Dev nD) : S8192x1024.Idx → EReal := V c (Pipeline.arrRef spec0 0)
abbrev inW0 (c : Dev nD) : S1024x1024.Idx → EReal := V c (Pipeline.arrRef spec0 1)
abbrev inB0 (c : Dev nD) : S1024.Idx → EReal := V c (Pipeline.arrRef spec0 2)

theorem zero2_0 : (![0, 0] : Fin 2 → Nat) = fun _ => 0 := funext fun a => by fin_cases a <;> rfl
theorem zero1_0 : (![0] : Fin 1 → Nat) = fun _ => 0 := funext fun a => by fin_cases a <;> rfl

/-- The printed index maps, decided over the eight points: the first input and the output are at block row t,
    column 0; the matrix and the vector are always at block 0. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry x of the first input's block at point t is entry (1024·t + x 0, x 1) of its array. -/
theorem iblk0_0_apply (c : Dev nD) (t : Fin cfg0.N) (x : S1024x1024.Idx) (k : S8192x1024.Idx)
    (hk0 : (k 0).val = 1024 * t.val + (x 0).val) (hk1 : (k 1).val = (x 1).val) :
    (iblk0 V c 0 t : Vec Ideal S1024x1024 .f32) x = inX0 V c k := by
  obtain ⟨e0, e1, -, -, -, -, -⟩ := index_facts0 t
  unfold iblk0
  rw [View.read_apply]
  refine congrArg (V c (Pipeline.arrRef spec0 0)) (funext fun a => Fin.ext ?_)
  match a with
  | ⟨0, _⟩ => show win0_0.index t 0 * 1024 + 1 * (x 0).val = (k 0).val; rw [e0, hk0]; omega
  | ⟨1, _⟩ => show win0_0.index t 1 * 1024 + 1 * (x 1).val = (k 1).val; rw [e1, hk1]; omega

/-- The matrix's block at every point is the matrix. -/
theorem iblk0_1_apply (c : Dev nD) (t : Fin cfg0.N) (x : S1024x1024.Idx) :
    (iblk0 V c 1 t : Vec Ideal S1024x1024 .bf16) x = inW0 V c x := by
  obtain ⟨-, -, e2, e3, -, -, -⟩ := index_facts0 t
  unfold iblk0
  rw [View.read_apply]
  refine congrArg (V c (Pipeline.arrRef spec0 1)) (funext fun a => Fin.ext ?_)
  match a with
  | ⟨0, _⟩ => show win0_1.index t 0 * 1024 + 1 * (x 0).val = (x 0).val; rw [e2]; omega
  | ⟨1, _⟩ => show win0_1.index t 1 * 1024 + 1 * (x 1).val = (x 1).val; rw [e3]; omega

/-- The vector's block at every point is the vector. -/
theorem iblk0_2_apply (c : Dev nD) (t : Fin cfg0.N) (x : S1024.Idx) :
    (iblk0 V c 2 t : Vec Ideal S1024 .f32) x = inB0 V c x := by
  obtain ⟨-, -, -, -, e4, -, -⟩ := index_facts0 t
  unfold iblk0
  rw [View.read_apply]
  refine congrArg (V c (Pipeline.arrRef spec0 2)) (funext fun a => Fin.ext ?_)
  match a with
  | ⟨0, _⟩ => show win0_2.index t 0 * 1024 + 1 * (x 0).val = (x 0).val; rw [e4]; omega

/-! ## What each point writes back, and the whole array -/

/-- The result array as one function of the three arrays the region finds. -/
abbrev rows0 (c : Dev nD) : S8192x1024.Idx → EReal := fun j =>
  (∑ k : Fin 1024, inX0 V c (ix2 (j 0) k) * inW0 V c (ix2 k (j 1))) + inB0 V c (ix1 (j 1))

/-- Point t writes back block t of that function. -/
theorem flushed0_eq (c : Dev nD) (t : Fin cfg0.N) :
    (dat0 (F := Ideal) V c).flushed 3 t = ((cfg0.win 3).blk t).view.read (Elt Ideal) (rows0 V c) := by
  show (cfg0.win 3).cut (grid0.coords t) ((dat0 (F := Ideal) V c).after 3 t) = _
  rw [after0_3]
  unfold out0_3
  rw [View.canon_unit_zero zero2_0]
  simp only [View.ld_unit_zero (S := S1024x1024) zero2_0, View.ld_unit_zero (S := S1024) zero1_0]
  obtain ⟨-, -, -, -, -, e5, e6⟩ := index_facts0 t
  funext j
  have hj0 : (j 0).val < 1024 := (j 0).isLt
  have hj1 : (j 1).val < 1024 := (j 1).isLt
  show k0_pay1 (F := Ideal) (iblk0 V c 0 t) (iblk0 V c 1 t) (iblk0 V c 2 t) j
    = rows0 V c (((cfg0.win 3).blk t).view.emb j)
  have hr : ((((cfg0.win 3).blk t).view.emb j : S8192x1024.Idx) 0).val = 1024 * t.val + (j 0).val := by
    show win0_3.index t 0 * 1024 + 1 * (j 0).val = _; rw [e5]; omega
  have hc : ((((cfg0.win 3).blk t).view.emb j : S8192x1024.Idx) 1).val = (j 1).val := by
    show win0_3.index t 1 * 1024 + 1 * (j 1).val = _; rw [e6]; omega
  have hj : (j : S1024x1024.Idx) = ix2 (j 0) (j 1) := eq_ix2 j
  refine (congrArg (k0_pay1 (F := Ideal) (iblk0 V c 0 t) (iblk0 V c 1 t) (iblk0 V c 2 t)) hj).trans ?_
  exact block_entry0 (inX0 V c) (inW0 V c) (inB0 V c) _ _ _ (((cfg0.win 3).blk t).view.emb j) (j 0) (j 1) (Fin.ext hc)
    (fun k => iblk0_0_apply V c t (ix2 (j 0) k) (ix2 ((((cfg0.win 3).blk t).view.emb j : S8192x1024.Idx) 0) k) hr rfl)
    (fun k => iblk0_1_apply V c t (ix2 k (j 1)))
    (iblk0_2_apply V c t (ix1 (j 1)))

/-- Every entry of the result lies in the block of the point its row selects. -/
theorem cover0 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  let t : Fin cfg0.N := ⟨(i 0).val / 1024, by rw [hN]; omega⟩
  have ht : t.val = (i 0).val / 1024 := rfl
  obtain ⟨-, -, -, -, -, e5, e6⟩ := index_facts0 t
  refine ⟨t, flush0_3 t, ?_⟩
  show i ∈ ((View.whole main_v9).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e5, ht]; omega
  | ⟨1, _⟩ =>
    show win0_3.index t (1 : Fin 2) * 1024 ≤ (i 1).val ∧ (i 1).val < win0_3.index t (1 : Fin 2) * 1024 + 1024
    rw [e6]; omega

/-- After the region the result array holds, at (r, q), (Σ_k X[r, k] · W[k, q]) + b[q] of the three arrays it was
    entered with. -/
theorem arrAt0 (c : Dev nD) :
    (dat0 (F := Ideal) V c).arrAt 3 cfg0.N
      = fun j => (∑ k : Fin 1024, inX0 V c (ix2 (j 0) k) * inW0 V c (ix2 k (j 1))) + inB0 V c (ix1 (j 1)) :=
  (dat0 (F := Ideal) V c).arrAt_eq_of_cover 3 (rows0 V c) (fun t _ => flushed0_eq V c t) (cover0)

end Cert.KernelIdeal.LinearValue

end
-- ==== Proof.Linear1.lean ====
/-
  Linear-layer region 1 of the idealized kernel, from its blocks to the whole array.

  The region runs one body on a grid of 8 points.  At point t the body reads rows 1024·t … 1024·t + 1023 of an
  [8192, 1024] array X (window 0), the whole [1024, 1024] matrix W (window 1) and the whole [1024] vector b
  (window 2), and stores into the same rows of the [8192, 1024] result (window 3) the block
      (x · W)[p, q] + b[q]   with x the block of X,
  the changes of float format being the identity on the extended reals.  Row r of the result lies in the block of
  point r / 1024, the eight blocks tile the result, and row p of block t of X is row 1024·t + p of X, so after the
  region the result holds, at (r, q),  (Σ_k X[r, k] · W[k, q]) + b[q]  —  whatever the three arrays held when the
  region was entered (the parameter V).
-/
import proofs.«135135_j1846835938037_2_alg».proof.Proof.Gen.KernelIdeal.Frame
import proofs.«135135_j1846835938037_2_alg».proof.Proof.LibLinearBlock
import Idealize.ShloMosaic.Lib.Pipeline.Value

set_option maxRecDepth 16384

noncomputable section

open scoped BigOperators

namespace Cert.KernelIdeal.LinearValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's block at an entry -/

/-- The product's dimension record is the plain one: left axis 1 against right axis 0, no batch axes. -/
theorem dot_plain1 : dot_S1024x1024_S1024x1024_S1024x1024_1_0_0_1_n_n = DotDims.plain 1024 1024 1024 := rfl

/-- Entry (p, q) of what the body stores, from the three blocks it loads. -/
theorem pay1_apply (v0 : Vec Ideal S1024x1024 .f32) (v3 : Vec Ideal S1024x1024 .bf16) (v6 : Vec Ideal S1024 .f32)
    (p q : Fin 1024) :
    k1_pay1 (F := Ideal) v0 v3 v6 (ix2 p q) = (∑ k : Fin 1024, v0 (ix2 p k) * v3 (ix2 k q)) + v6 (ix1 q) := by
  unfold k1_pay1
  exact Cert.LibLinearBlock.linear_block_apply dot_S1024x1024_S1024x1024_S1024x1024_1_0_0_1_n_n dot_plain1 none v0 v3 v6
    Gen.shapeCasts_S1024x1024_S1024x1024 Gen.shapeCasts_S1024x1024_S1024x1024 Gen.shapeCasts_S1024_S1x1024
    Gen.broadcasts_S1x1024_S1024x1024 Gen.bitsLt_bf16_f32 Gen.bitsLt_bf16_f32 p q

/-- The same entry when the loaded blocks are read off three arrays X, W, B: row p of the first block is row
    `i 0` of X, the other two blocks are W and B themselves, and the column `i 1` is q. -/
theorem block_entry1 (X : S8192x1024.Idx → EReal) (W : S1024x1024.Idx → EReal) (B : S1024.Idx → EReal)
    (x0 : Vec Ideal S1024x1024 .f32) (x1 : Vec Ideal S1024x1024 .bf16) (x2 : Vec Ideal S1024 .f32)
    (i : S8192x1024.Idx) (p q : Fin 1024) (hq : i 1 = q)
    (h0 : ∀ k : Fin 1024, x0 (ix2 p k) = X (ix2 (i 0) k))
    (h1 : ∀ k : Fin 1024, x1 (ix2 k q) = W (ix2 k q))
    (h2 : x2 (ix1 q) = B (ix1 q)) :
    k1_pay1 (F := Ideal) x0 x1 x2 (ix2 p q)
      = (∑ k : Fin 1024, X (ix2 (i 0) k) * W (ix2 k (i 1))) + B (ix1 (i 1)) := by
  rw [pay1_apply, h2, hq]
  exact congrArg (· + B (ix1 q)) (Finset.sum_congr rfl fun k _ => by rw [h0 k, h1 k])

/-! ## The windows' blocks as parts of their arrays -/

/-- The three arrays the region reads, as it finds them: the [8192, 1024] input, the [1024, 1024] matrix and the
    [1024] vector. -/
abbrev inX1 (c : Dev nD) : S8192x1024.Idx → EReal := V c (Pipeline.arrRef spec1 0)
abbrev inW1 (c : Dev nD) : S1024x1024.Idx → EReal := V c (Pipeline.arrRef spec1 1)
abbrev inB1 (c : Dev nD) : S1024.Idx → EReal := V c (Pipeline.arrRef spec1 2)

theorem zero2_1 : (![0, 0] : Fin 2 → Nat) = fun _ => 0 := funext fun a => by fin_cases a <;> rfl
theorem zero1_1 : (![0] : Fin 1 → Nat) = fun _ => 0 := funext fun a => by fin_cases a <;> rfl

/-- The printed index maps, decided over the eight points: the first input and the output are at block row t,
    column 0; the matrix and the vector are always at block 0. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Entry x of the first input's block at point t is entry (1024·t + x 0, x 1) of its array. -/
theorem iblk1_0_apply (c : Dev nD) (t : Fin cfg1.N) (x : S1024x1024.Idx) (k : S8192x1024.Idx)
    (hk0 : (k 0).val = 1024 * t.val + (x 0).val) (hk1 : (k 1).val = (x 1).val) :
    (iblk1 V c 0 t : Vec Ideal S1024x1024 .f32) x = inX1 V c k := by
  obtain ⟨e0, e1, -, -, -, -, -⟩ := index_facts1 t
  unfold iblk1
  rw [View.read_apply]
  refine congrArg (V c (Pipeline.arrRef spec1 0)) (funext fun a => Fin.ext ?_)
  match a with
  | ⟨0, _⟩ => show win1_0.index t 0 * 1024 + 1 * (x 0).val = (k 0).val; rw [e0, hk0]; omega
  | ⟨1, _⟩ => show win1_0.index t 1 * 1024 + 1 * (x 1).val = (k 1).val; rw [e1, hk1]; omega

/-- The matrix's block at every point is the matrix. -/
theorem iblk1_1_apply (c : Dev nD) (t : Fin cfg1.N) (x : S1024x1024.Idx) :
    (iblk1 V c 1 t : Vec Ideal S1024x1024 .bf16) x = inW1 V c x := by
  obtain ⟨-, -, e2, e3, -, -, -⟩ := index_facts1 t
  unfold iblk1
  rw [View.read_apply]
  refine congrArg (V c (Pipeline.arrRef spec1 1)) (funext fun a => Fin.ext ?_)
  match a with
  | ⟨0, _⟩ => show win1_1.index t 0 * 1024 + 1 * (x 0).val = (x 0).val; rw [e2]; omega
  | ⟨1, _⟩ => show win1_1.index t 1 * 1024 + 1 * (x 1).val = (x 1).val; rw [e3]; omega

/-- The vector's block at every point is the vector. -/
theorem iblk1_2_apply (c : Dev nD) (t : Fin cfg1.N) (x : S1024.Idx) :
    (iblk1 V c 2 t : Vec Ideal S1024 .f32) x = inB1 V c x := by
  obtain ⟨-, -, -, -, e4, -, -⟩ := index_facts1 t
  unfold iblk1
  rw [View.read_apply]
  refine congrArg (V c (Pipeline.arrRef spec1 2)) (funext fun a => Fin.ext ?_)
  match a with
  | ⟨0, _⟩ => show win1_2.index t 0 * 1024 + 1 * (x 0).val = (x 0).val; rw [e4]; omega

/-! ## What each point writes back, and the whole array -/

/-- The result array as one function of the three arrays the region finds. -/
abbrev rows1 (c : Dev nD) : S8192x1024.Idx → EReal := fun j =>
  (∑ k : Fin 1024, inX1 V c (ix2 (j 0) k) * inW1 V c (ix2 k (j 1))) + inB1 V c (ix1 (j 1))

/-- Point t writes back block t of that function. -/
theorem flushed1_eq (c : Dev nD) (t : Fin cfg1.N) :
    (dat1 (F := Ideal) V c).flushed 3 t = ((cfg1.win 3).blk t).view.read (Elt Ideal) (rows1 V c) := by
  show (cfg1.win 3).cut (grid1.coords t) ((dat1 (F := Ideal) V c).after 3 t) = _
  rw [after1_3]
  unfold out1_3
  rw [View.canon_unit_zero zero2_1]
  simp only [View.ld_unit_zero (S := S1024x1024) zero2_1, View.ld_unit_zero (S := S1024) zero1_1]
  obtain ⟨-, -, -, -, -, e5, e6⟩ := index_facts1 t
  funext j
  have hj0 : (j 0).val < 1024 := (j 0).isLt
  have hj1 : (j 1).val < 1024 := (j 1).isLt
  show k1_pay1 (F := Ideal) (iblk1 V c 0 t) (iblk1 V c 1 t) (iblk1 V c 2 t) j
    = rows1 V c (((cfg1.win 3).blk t).view.emb j)
  have hr : ((((cfg1.win 3).blk t).view.emb j : S8192x1024.Idx) 0).val = 1024 * t.val + (j 0).val := by
    show win1_3.index t 0 * 1024 + 1 * (j 0).val = _; rw [e5]; omega
  have hc : ((((cfg1.win 3).blk t).view.emb j : S8192x1024.Idx) 1).val = (j 1).val := by
    show win1_3.index t 1 * 1024 + 1 * (j 1).val = _; rw [e6]; omega
  have hj : (j : S1024x1024.Idx) = ix2 (j 0) (j 1) := eq_ix2 j
  refine (congrArg (k1_pay1 (F := Ideal) (iblk1 V c 0 t) (iblk1 V c 1 t) (iblk1 V c 2 t)) hj).trans ?_
  exact block_entry1 (inX1 V c) (inW1 V c) (inB1 V c) _ _ _ (((cfg1.win 3).blk t).view.emb j) (j 0) (j 1) (Fin.ext hc)
    (fun k => iblk1_0_apply V c t (ix2 (j 0) k) (ix2 ((((cfg1.win 3).blk t).view.emb j : S8192x1024.Idx) 0) k) hr rfl)
    (fun k => iblk1_1_apply V c t (ix2 k (j 1)))
    (iblk1_2_apply V c t (ix1 (j 1)))

/-- Every entry of the result lies in the block of the point its row selects. -/
theorem cover1 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 8 := N_1
  let t : Fin cfg1.N := ⟨(i 0).val / 1024, by rw [hN]; omega⟩
  have ht : t.val = (i 0).val / 1024 := rfl
  obtain ⟨-, -, -, -, -, e5, e6⟩ := index_facts1 t
  refine ⟨t, flush1_3 t, ?_⟩
  show i ∈ ((View.whole main_v12).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    rw [e5, ht]; omega
  | ⟨1, _⟩ =>
    show win1_3.index t (1 : Fin 2) * 1024 ≤ (i 1).val ∧ (i 1).val < win1_3.index t (1 : Fin 2) * 1024 + 1024
    rw [e6]; omega

/-- After the region the result array holds, at (r, q), (Σ_k X[r, k] · W[k, q]) + b[q] of the three arrays it was
    entered with. -/
theorem arrAt1 (c : Dev nD) :
    (dat1 (F := Ideal) V c).arrAt 3 cfg1.N
      = fun j => (∑ k : Fin 1024, inX1 V c (ix2 (j 0) k) * inW1 V c (ix2 k (j 1))) + inB1 V c (ix1 (j 1)) :=
  (dat1 (F := Ideal) V c).arrAt_eq_of_cover 3 (rows1 V c) (fun t _ => flushed1_eq V c t) (cover1)

end Cert.KernelIdeal.LinearValue

end
-- ==== Proof.Linear2.lean ====
/-
  Linear-layer region 2 of the idealized kernel, from its blocks to the whole array.

  The region runs one body on a grid of 8 points.  At point t the body reads rows 1024·t … 1024·t + 1023 of an
  [8192, 1024] array X (window 0), the whole [1024, 1024] matrix W (window 1) and the whole [1024] vector b
  (window 2), and stores into the same rows of the [8192, 1024] result (window 3) the block
      (x · W)[p, q] + b[q]   with x the block of X,
  the changes of float format being the identity on the extended reals.  Row r of the result lies in the block of
  point r / 1024, the eight blocks tile the result, and row p of block t of X is row 1024·t + p of X, so after the
  region the result holds, at (r, q),  (Σ_k X[r, k] · W[k, q]) + b[q]  —  whatever the three arrays held when the
  region was entered (the parameter V).
-/
import proofs.«135135_j1846835938037_2_alg».proof.Proof.Gen.KernelIdeal.Frame
import proofs.«135135_j1846835938037_2_alg».proof.Proof.LibLinearBlock
import Idealize.ShloMosaic.Lib.Pipeline.Value

set_option maxRecDepth 16384

noncomputable section

open scoped BigOperators

namespace Cert.KernelIdeal.LinearValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's block at an entry -/

/-- The product's dimension record is the plain one: left axis 1 against right axis 0, no batch axes. -/
theorem dot_plain2 : dot_S1024x1024_S1024x1024_S1024x1024_1_0_0_1_n_n = DotDims.plain 1024 1024 1024 := rfl

/-- Entry (p, q) of what the body stores, from the three blocks it loads. -/
theorem pay2_apply (v0 : Vec Ideal S1024x1024 .f32) (v3 : Vec Ideal S1024x1024 .bf16) (v6 : Vec Ideal S1024 .f32)
    (p q : Fin 1024) :
    k2_pay1 (F := Ideal) v0 v3 v6 (ix2 p q) = (∑ k : Fin 1024, v0 (ix2 p k) * v3 (ix2 k q)) + v6 (ix1 q) := by
  unfold k2_pay1
  exact Cert.LibLinearBlock.linear_block_apply dot_S1024x1024_S1024x1024_S1024x1024_1_0_0_1_n_n dot_plain2 none v0 v3 v6
    Gen.shapeCasts_S1024x1024_S1024x1024 Gen.shapeCasts_S1024x1024_S1024x1024 Gen.shapeCasts_S1024_S1x1024
    Gen.broadcasts_S1x1024_S1024x1024 Gen.bitsLt_bf16_f32 Gen.bitsLt_bf16_f32 p q

/-- The same entry when the loaded blocks are read off three arrays X, W, B: row p of the first block is row
    `i 0` of X, the other two blocks are W and B themselves, and the column `i 1` is q. -/
theorem block_entry2 (X : S8192x1024.Idx → EReal) (W : S1024x1024.Idx → EReal) (B : S1024.Idx → EReal)
    (x0 : Vec Ideal S1024x1024 .f32) (x1 : Vec Ideal S1024x1024 .bf16) (x2 : Vec Ideal S1024 .f32)
    (i : S8192x1024.Idx) (p q : Fin 1024) (hq : i 1 = q)
    (h0 : ∀ k : Fin 1024, x0 (ix2 p k) = X (ix2 (i 0) k))
    (h1 : ∀ k : Fin 1024, x1 (ix2 k q) = W (ix2 k q))
    (h2 : x2 (ix1 q) = B (ix1 q)) :
    k2_pay1 (F := Ideal) x0 x1 x2 (ix2 p q)
      = (∑ k : Fin 1024, X (ix2 (i 0) k) * W (ix2 k (i 1))) + B (ix1 (i 1)) := by
  rw [pay2_apply, h2, hq]
  exact congrArg (· + B (ix1 q)) (Finset.sum_congr rfl fun k _ => by rw [h0 k, h1 k])

/-! ## The windows' blocks as parts of their arrays -/

/-- The three arrays the region reads, as it finds them: the [8192, 1024] input, the [1024, 1024] matrix and the
    [1024] vector. -/
abbrev inX2 (c : Dev nD) : S8192x1024.Idx → EReal := V c (Pipeline.arrRef spec2 0)
abbrev inW2 (c : Dev nD) : S1024x1024.Idx → EReal := V c (Pipeline.arrRef spec2 1)
abbrev inB2 (c : Dev nD) : S1024.Idx → EReal := V c (Pipeline.arrRef spec2 2)

theorem zero2_2 : (![0, 0] : Fin 2 → Nat) = fun _ => 0 := funext fun a => by fin_cases a <;> rfl
theorem zero1_2 : (![0] : Fin 1 → Nat) = fun _ => 0 := funext fun a => by fin_cases a <;> rfl

/-- The printed index maps, decided over the eight points: the first input and the output are at block row t,
    column 0; the matrix and the vector are always at block 0. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Entry x of the first input's block at point t is entry (1024·t + x 0, x 1) of its array. -/
theorem iblk2_0_apply (c : Dev nD) (t : Fin cfg2.N) (x : S1024x1024.Idx) (k : S8192x1024.Idx)
    (hk0 : (k 0).val = 1024 * t.val + (x 0).val) (hk1 : (k 1).val = (x 1).val) :
    (iblk2 V c 0 t : Vec Ideal S1024x1024 .f32) x = inX2 V c k := by
  obtain ⟨e0, e1, -, -, -, -, -⟩ := index_facts2 t
  unfold iblk2
  rw [View.read_apply]
  refine congrArg (V c (Pipeline.arrRef spec2 0)) (funext fun a => Fin.ext ?_)
  match a with
  | ⟨0, _⟩ => show win2_0.index t 0 * 1024 + 1 * (x 0).val = (k 0).val; rw [e0, hk0]; omega
  | ⟨1, _⟩ => show win2_0.index t 1 * 1024 + 1 * (x 1).val = (k 1).val; rw [e1, hk1]; omega

/-- The matrix's block at every point is the matrix. -/
theorem iblk2_1_apply (c : Dev nD) (t : Fin cfg2.N) (x : S1024x1024.Idx) :
    (iblk2 V c 1 t : Vec Ideal S1024x1024 .bf16) x = inW2 V c x := by
  obtain ⟨-, -, e2, e3, -, -, -⟩ := index_facts2 t
  unfold iblk2
  rw [View.read_apply]
  refine congrArg (V c (Pipeline.arrRef spec2 1)) (funext fun a => Fin.ext ?_)
  match a with
  | ⟨0, _⟩ => show win2_1.index t 0 * 1024 + 1 * (x 0).val = (x 0).val; rw [e2]; omega
  | ⟨1, _⟩ => show win2_1.index t 1 * 1024 + 1 * (x 1).val = (x 1).val; rw [e3]; omega

/-- The vector's block at every point is the vector. -/
theorem iblk2_2_apply (c : Dev nD) (t : Fin cfg2.N) (x : S1024.Idx) :
    (iblk2 V c 2 t : Vec Ideal S1024 .f32) x = inB2 V c x := by
  obtain ⟨-, -, -, -, e4, -, -⟩ := index_facts2 t
  unfold iblk2
  rw [View.read_apply]
  refine congrArg (V c (Pipeline.arrRef spec2 2)) (funext fun a => Fin.ext ?_)
  match a with
  | ⟨0, _⟩ => show win2_2.index t 0 * 1024 + 1 * (x 0).val = (x 0).val; rw [e4]; omega

/-! ## What each point writes back, and the whole array -/

/-- The result array as one function of the three arrays the region finds. -/
abbrev rows2 (c : Dev nD) : S8192x1024.Idx → EReal := fun j =>
  (∑ k : Fin 1024, inX2 V c (ix2 (j 0) k) * inW2 V c (ix2 k (j 1))) + inB2 V c (ix1 (j 1))

/-- Point t writes back block t of that function. -/
theorem flushed2_eq (c : Dev nD) (t : Fin cfg2.N) :
    (dat2 (F := Ideal) V c).flushed 3 t = ((cfg2.win 3).blk t).view.read (Elt Ideal) (rows2 V c) := by
  show (cfg2.win 3).cut (grid2.coords t) ((dat2 (F := Ideal) V c).after 3 t) = _
  rw [after2_3]
  unfold out2_3
  rw [View.canon_unit_zero zero2_2]
  simp only [View.ld_unit_zero (S := S1024x1024) zero2_2, View.ld_unit_zero (S := S1024) zero1_2]
  obtain ⟨-, -, -, -, -, e5, e6⟩ := index_facts2 t
  funext j
  have hj0 : (j 0).val < 1024 := (j 0).isLt
  have hj1 : (j 1).val < 1024 := (j 1).isLt
  show k2_pay1 (F := Ideal) (iblk2 V c 0 t) (iblk2 V c 1 t) (iblk2 V c 2 t) j
    = rows2 V c (((cfg2.win 3).blk t).view.emb j)
  have hr : ((((cfg2.win 3).blk t).view.emb j : S8192x1024.Idx) 0).val = 1024 * t.val + (j 0).val := by
    show win2_3.index t 0 * 1024 + 1 * (j 0).val = _; rw [e5]; omega
  have hc : ((((cfg2.win 3).blk t).view.emb j : S8192x1024.Idx) 1).val = (j 1).val := by
    show win2_3.index t 1 * 1024 + 1 * (j 1).val = _; rw [e6]; omega
  have hj : (j : S1024x1024.Idx) = ix2 (j 0) (j 1) := eq_ix2 j
  refine (congrArg (k2_pay1 (F := Ideal) (iblk2 V c 0 t) (iblk2 V c 1 t) (iblk2 V c 2 t)) hj).trans ?_
  exact block_entry2 (inX2 V c) (inW2 V c) (inB2 V c) _ _ _ (((cfg2.win 3).blk t).view.emb j) (j 0) (j 1) (Fin.ext hc)
    (fun k => iblk2_0_apply V c t (ix2 (j 0) k) (ix2 ((((cfg2.win 3).blk t).view.emb j : S8192x1024.Idx) 0) k) hr rfl)
    (fun k => iblk2_1_apply V c t (ix2 k (j 1)))
    (iblk2_2_apply V c t (ix1 (j 1)))

/-- Every entry of the result lies in the block of the point its row selects. -/
theorem cover2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  let t : Fin cfg2.N := ⟨(i 0).val / 1024, by rw [hN]; omega⟩
  have ht : t.val = (i 0).val / 1024 := rfl
  obtain ⟨-, -, -, -, -, e5, e6⟩ := index_facts2 t
  refine ⟨t, flush2_3 t, ?_⟩
  show i ∈ ((View.whole main_v15).slice (win2_3.rect t)).set
  rw [View.set_slice_whole, Rect.mem_set_unit]
  intro a
  match a with
  | ⟨0, _⟩ =>
    show win2_3.index t (0 : Fin 2) * 1024 ≤ (i 0).val ∧ (i 0).val < win2_3.index t (0 : Fin 2) * 1024 + 1024
    rw [e5, ht]; omega
  | ⟨1, _⟩ =>
    show win2_3.index t (1 : Fin 2) * 1024 ≤ (i 1).val ∧ (i 1).val < win2_3.index t (1 : Fin 2) * 1024 + 1024
    rw [e6]; omega

/-- After the region the result array holds, at (r, q), (Σ_k X[r, k] · W[k, q]) + b[q] of the three arrays it was
    entered with. -/
theorem arrAt2 (c : Dev nD) :
    (dat2 (F := Ideal) V c).arrAt 3 cfg2.N
      = fun j => (∑ k : Fin 1024, inX2 V c (ix2 (j 0) k) * inW2 V c (ix2 k (j 1))) + inB2 V c (ix1 (j 1)) :=
  (dat2 (F := Ideal) V c).arrAt_eq_of_cover 3 (rows2 V c) (fun t _ => flushed2_eq V c t) (cover2)

end Cert.KernelIdeal.LinearValue

end
-- ==== Proof.Fold.lean ====
/-
  The operand arrays of the four kernel regions, read back to the launch.

  Between the launch and the last region the program's main function alternates stretches of host operations with
  kernel regions; a buffer holds, at any boundary, what the last operation or region that writes it left there.  Read
  back through those boundaries: each transposed and narrowed weight is that function of its argument matrix, made
  before the first region and touched by nothing later; each [8192, 1024] input of a projection region is its
  [4, 2048, 1024] argument with the two leading axes merged; each projected array the attention region reads is the
  [8192, 1024] result of its projection region with the leading axis split again; every bias is its argument.
-/
import proofs.«135135_j1846835938037_2_alg».proof.Proof.Gen.KernelIdeal.Frame
import Idealize.ShloMosaic.Lib.StableHlo.Run
import Idealize.ShloMosaic.PureOps.Ideal

set_option maxRecDepth 16384

noncomputable section

namespace Cert.KernelIdeal.FoldValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## A buffer that a stretch of host operations or a region does not write keeps its contents -/

theorem keepH0_arg4 (c : Dev nD) : W1 m ρ c (Proc.devRef .tc main_arg4) = W0 m ρ c (Proc.devRef .tc main_arg4) := by
  show StableHlo.after (hostOps0 (F := Ideal)) (W0 m ρ c) (Proc.devRef .tc main_arg4) = _
  after_results
theorem keepR0_arg1 (c : Dev nD) : W2 m ρ c (Proc.devRef .tc main_arg1) = W1 m ρ c (Proc.devRef .tc main_arg1) :=
  W2_of_ne m ρ c main_arg1 (by decide)
theorem keepH0_arg1 (c : Dev nD) : W1 m ρ c (Proc.devRef .tc main_arg1) = W0 m ρ c (Proc.devRef .tc main_arg1) := by
  show StableHlo.after (hostOps0 (F := Ideal)) (W0 m ρ c) (Proc.devRef .tc main_arg1) = _
  after_results
theorem keepH1_arg6 (c : Dev nD) : W3 m ρ c (Proc.devRef .tc main_arg6) = W2 m ρ c (Proc.devRef .tc main_arg6) := by
  show StableHlo.after (hostOps1 (F := Ideal)) (W2 m ρ c) (Proc.devRef .tc main_arg6) = _
  after_results
theorem keepR0_arg6 (c : Dev nD) : W2 m ρ c (Proc.devRef .tc main_arg6) = W1 m ρ c (Proc.devRef .tc main_arg6) :=
  W2_of_ne m ρ c main_arg6 (by decide)
theorem keepH0_arg6 (c : Dev nD) : W1 m ρ c (Proc.devRef .tc main_arg6) = W0 m ρ c (Proc.devRef .tc main_arg6) := by
  show StableHlo.after (hostOps0 (F := Ideal)) (W0 m ρ c) (Proc.devRef .tc main_arg6) = _
  after_results
theorem keepR1_arg2 (c : Dev nD) : W4 m ρ c (Proc.devRef .tc main_arg2) = W3 m ρ c (Proc.devRef .tc main_arg2) :=
  W4_of_ne m ρ c main_arg2 (by decide)
theorem keepH1_arg2 (c : Dev nD) : W3 m ρ c (Proc.devRef .tc main_arg2) = W2 m ρ c (Proc.devRef .tc main_arg2) := by
  show StableHlo.after (hostOps1 (F := Ideal)) (W2 m ρ c) (Proc.devRef .tc main_arg2) = _
  after_results
theorem keepR0_arg2 (c : Dev nD) : W2 m ρ c (Proc.devRef .tc main_arg2) = W1 m ρ c (Proc.devRef .tc main_arg2) :=
  W2_of_ne m ρ c main_arg2 (by decide)
theorem keepH0_arg2 (c : Dev nD) : W1 m ρ c (Proc.devRef .tc main_arg2) = W0 m ρ c (Proc.devRef .tc main_arg2) := by
  show StableHlo.after (hostOps0 (F := Ideal)) (W0 m ρ c) (Proc.devRef .tc main_arg2) = _
  after_results
theorem keepH2_arg8 (c : Dev nD) : W5 m ρ c (Proc.devRef .tc main_arg8) = W4 m ρ c (Proc.devRef .tc main_arg8) := by
  show StableHlo.after (hostOps2 (F := Ideal)) (W4 m ρ c) (Proc.devRef .tc main_arg8) = _
  after_results
theorem keepR1_arg8 (c : Dev nD) : W4 m ρ c (Proc.devRef .tc main_arg8) = W3 m ρ c (Proc.devRef .tc main_arg8) :=
  W4_of_ne m ρ c main_arg8 (by decide)
theorem keepH1_arg8 (c : Dev nD) : W3 m ρ c (Proc.devRef .tc main_arg8) = W2 m ρ c (Proc.devRef .tc main_arg8) := by
  show StableHlo.after (hostOps1 (F := Ideal)) (W2 m ρ c) (Proc.devRef .tc main_arg8) = _
  after_results
theorem keepR0_arg8 (c : Dev nD) : W2 m ρ c (Proc.devRef .tc main_arg8) = W1 m ρ c (Proc.devRef .tc main_arg8) :=
  W2_of_ne m ρ c main_arg8 (by decide)
theorem keepH0_arg8 (c : Dev nD) : W1 m ρ c (Proc.devRef .tc main_arg8) = W0 m ρ c (Proc.devRef .tc main_arg8) := by
  show StableHlo.after (hostOps0 (F := Ideal)) (W0 m ρ c) (Proc.devRef .tc main_arg8) = _
  after_results
theorem keepH3_arg10 (c : Dev nD) : W7 m ρ c (Proc.devRef .tc main_arg10) = W6 m ρ c (Proc.devRef .tc main_arg10) := by
  show StableHlo.after (hostOps3 (F := Ideal)) (W6 m ρ c) (Proc.devRef .tc main_arg10) = _
  after_results
theorem keepR2_arg10 (c : Dev nD) : W6 m ρ c (Proc.devRef .tc main_arg10) = W5 m ρ c (Proc.devRef .tc main_arg10) :=
  W6_of_ne m ρ c main_arg10 (by decide)
theorem keepH2_arg10 (c : Dev nD) : W5 m ρ c (Proc.devRef .tc main_arg10) = W4 m ρ c (Proc.devRef .tc main_arg10) := by
  show StableHlo.after (hostOps2 (F := Ideal)) (W4 m ρ c) (Proc.devRef .tc main_arg10) = _
  after_results
theorem keepR1_arg10 (c : Dev nD) : W4 m ρ c (Proc.devRef .tc main_arg10) = W3 m ρ c (Proc.devRef .tc main_arg10) :=
  W4_of_ne m ρ c main_arg10 (by decide)
theorem keepH1_arg10 (c : Dev nD) : W3 m ρ c (Proc.devRef .tc main_arg10) = W2 m ρ c (Proc.devRef .tc main_arg10) := by
  show StableHlo.after (hostOps1 (F := Ideal)) (W2 m ρ c) (Proc.devRef .tc main_arg10) = _
  after_results
theorem keepR0_arg10 (c : Dev nD) : W2 m ρ c (Proc.devRef .tc main_arg10) = W1 m ρ c (Proc.devRef .tc main_arg10) :=
  W2_of_ne m ρ c main_arg10 (by decide)
theorem keepH0_arg10 (c : Dev nD) : W1 m ρ c (Proc.devRef .tc main_arg10) = W0 m ρ c (Proc.devRef .tc main_arg10) := by
  show StableHlo.after (hostOps0 (F := Ideal)) (W0 m ρ c) (Proc.devRef .tc main_arg10) = _
  after_results
theorem keepH1_v3 (c : Dev nD) : W3 m ρ c (Proc.devRef .tc main_v3) = W2 m ρ c (Proc.devRef .tc main_v3) := by
  show StableHlo.after (hostOps1 (F := Ideal)) (W2 m ρ c) (Proc.devRef .tc main_v3) = _
  after_results
theorem keepR0_v3 (c : Dev nD) : W2 m ρ c (Proc.devRef .tc main_v3) = W1 m ρ c (Proc.devRef .tc main_v3) :=
  W2_of_ne m ρ c main_v3 (by decide)
theorem keepH2_v5 (c : Dev nD) : W5 m ρ c (Proc.devRef .tc main_v5) = W4 m ρ c (Proc.devRef .tc main_v5) := by
  show StableHlo.after (hostOps2 (F := Ideal)) (W4 m ρ c) (Proc.devRef .tc main_v5) = _
  after_results
theorem keepR1_v5 (c : Dev nD) : W4 m ρ c (Proc.devRef .tc main_v5) = W3 m ρ c (Proc.devRef .tc main_v5) :=
  W4_of_ne m ρ c main_v5 (by decide)
theorem keepH1_v5 (c : Dev nD) : W3 m ρ c (Proc.devRef .tc main_v5) = W2 m ρ c (Proc.devRef .tc main_v5) := by
  show StableHlo.after (hostOps1 (F := Ideal)) (W2 m ρ c) (Proc.devRef .tc main_v5) = _
  after_results
theorem keepR0_v5 (c : Dev nD) : W2 m ρ c (Proc.devRef .tc main_v5) = W1 m ρ c (Proc.devRef .tc main_v5) :=
  W2_of_ne m ρ c main_v5 (by decide)
theorem keepH3_v7 (c : Dev nD) : W7 m ρ c (Proc.devRef .tc main_v7) = W6 m ρ c (Proc.devRef .tc main_v7) := by
  show StableHlo.after (hostOps3 (F := Ideal)) (W6 m ρ c) (Proc.devRef .tc main_v7) = _
  after_results
theorem keepR2_v7 (c : Dev nD) : W6 m ρ c (Proc.devRef .tc main_v7) = W5 m ρ c (Proc.devRef .tc main_v7) :=
  W6_of_ne m ρ c main_v7 (by decide)
theorem keepH2_v7 (c : Dev nD) : W5 m ρ c (Proc.devRef .tc main_v7) = W4 m ρ c (Proc.devRef .tc main_v7) := by
  show StableHlo.after (hostOps2 (F := Ideal)) (W4 m ρ c) (Proc.devRef .tc main_v7) = _
  after_results
theorem keepR1_v7 (c : Dev nD) : W4 m ρ c (Proc.devRef .tc main_v7) = W3 m ρ c (Proc.devRef .tc main_v7) :=
  W4_of_ne m ρ c main_v7 (by decide)
theorem keepH1_v7 (c : Dev nD) : W3 m ρ c (Proc.devRef .tc main_v7) = W2 m ρ c (Proc.devRef .tc main_v7) := by
  show StableHlo.after (hostOps1 (F := Ideal)) (W2 m ρ c) (Proc.devRef .tc main_v7) = _
  after_results
theorem keepR0_v7 (c : Dev nD) : W2 m ρ c (Proc.devRef .tc main_v7) = W1 m ρ c (Proc.devRef .tc main_v7) :=
  W2_of_ne m ρ c main_v7 (by decide)
theorem keepH3_v10 (c : Dev nD) : W7 m ρ c (Proc.devRef .tc main_v10) = W6 m ρ c (Proc.devRef .tc main_v10) := by
  show StableHlo.after (hostOps3 (F := Ideal)) (W6 m ρ c) (Proc.devRef .tc main_v10) = _
  after_results
theorem keepR2_v10 (c : Dev nD) : W6 m ρ c (Proc.devRef .tc main_v10) = W5 m ρ c (Proc.devRef .tc main_v10) :=
  W6_of_ne m ρ c main_v10 (by decide)
theorem keepH2_v10 (c : Dev nD) : W5 m ρ c (Proc.devRef .tc main_v10) = W4 m ρ c (Proc.devRef .tc main_v10) := by
  show StableHlo.after (hostOps2 (F := Ideal)) (W4 m ρ c) (Proc.devRef .tc main_v10) = _
  after_results
theorem keepR1_v10 (c : Dev nD) : W4 m ρ c (Proc.devRef .tc main_v10) = W3 m ρ c (Proc.devRef .tc main_v10) :=
  W4_of_ne m ρ c main_v10 (by decide)
theorem keepH3_v13 (c : Dev nD) : W7 m ρ c (Proc.devRef .tc main_v13) = W6 m ρ c (Proc.devRef .tc main_v13) := by
  show StableHlo.after (hostOps3 (F := Ideal)) (W6 m ρ c) (Proc.devRef .tc main_v13) = _
  after_results
theorem keepR2_v13 (c : Dev nD) : W6 m ρ c (Proc.devRef .tc main_v13) = W5 m ρ c (Proc.devRef .tc main_v13) :=
  W6_of_ne m ρ c main_v13 (by decide)

/-! ## The buffers the regions read -/

theorem W1_arg4 (c : Dev nD) : W1 m ρ c (Proc.devRef .tc main_arg4) = m ((c : Thread nD τ).loc main_arg4) :=
  (keepH0_arg4 m ρ c)
theorem W2_arg1 (c : Dev nD) : W2 m ρ c (Proc.devRef .tc main_arg1) = m ((c : Thread nD τ).loc main_arg1) :=
  ((keepR0_arg1 m ρ c).trans (keepH0_arg1 m ρ c))
theorem W3_arg6 (c : Dev nD) : W3 m ρ c (Proc.devRef .tc main_arg6) = m ((c : Thread nD τ).loc main_arg6) :=
  ((keepH1_arg6 m ρ c).trans ((keepR0_arg6 m ρ c).trans (keepH0_arg6 m ρ c)))
theorem W4_arg2 (c : Dev nD) : W4 m ρ c (Proc.devRef .tc main_arg2) = m ((c : Thread nD τ).loc main_arg2) :=
  ((keepR1_arg2 m ρ c).trans ((keepH1_arg2 m ρ c).trans ((keepR0_arg2 m ρ c).trans (keepH0_arg2 m ρ c))))
theorem W5_arg8 (c : Dev nD) : W5 m ρ c (Proc.devRef .tc main_arg8) = m ((c : Thread nD τ).loc main_arg8) :=
  ((keepH2_arg8 m ρ c).trans ((keepR1_arg8 m ρ c).trans ((keepH1_arg8 m ρ c).trans ((keepR0_arg8 m ρ c).trans (keepH0_arg8 m ρ c)))))
theorem W7_arg10 (c : Dev nD) : W7 m ρ c (Proc.devRef .tc main_arg10) = m ((c : Thread nD τ).loc main_arg10) :=
  ((keepH3_arg10 m ρ c).trans ((keepR2_arg10 m ρ c).trans ((keepH2_arg10 m ρ c).trans ((keepR1_arg10 m ρ c).trans ((keepH1_arg10 m ρ c).trans ((keepR0_arg10 m ρ c).trans (keepH0_arg10 m ρ c)))))))
theorem W1_v1 (c : Dev nD) : W1 m ρ c (Proc.devRef .tc main_v1) = truncf (F := Ideal) .bf16 (transpose S1024x1024 [1, 0] (m ((c : Thread nD τ).loc main_arg3)) transposes_S1024x1024_S1024x1024_1_0) bitsLt_bf16_f32 := by
  show StableHlo.after (hostOps0 (F := Ideal)) (W0 m ρ c) (Proc.devRef .tc main_v1) = _
  after_results
theorem W1_v3 (c : Dev nD) : W1 m ρ c (Proc.devRef .tc main_v3) = truncf (F := Ideal) .bf16 (transpose S1024x1024 [1, 0] (m ((c : Thread nD τ).loc main_arg5)) transposes_S1024x1024_S1024x1024_1_0) bitsLt_bf16_f32 := by
  show StableHlo.after (hostOps0 (F := Ideal)) (W0 m ρ c) (Proc.devRef .tc main_v3) = _
  after_results
theorem W3_v3 (c : Dev nD) : W3 m ρ c (Proc.devRef .tc main_v3) = truncf (F := Ideal) .bf16 (transpose S1024x1024 [1, 0] (m ((c : Thread nD τ).loc main_arg5)) transposes_S1024x1024_S1024x1024_1_0) bitsLt_bf16_f32 :=
  ((keepH1_v3 m ρ c).trans ((keepR0_v3 m ρ c).trans (W1_v3 m ρ c)))
theorem W1_v5 (c : Dev nD) : W1 m ρ c (Proc.devRef .tc main_v5) = truncf (F := Ideal) .bf16 (transpose S1024x1024 [1, 0] (m ((c : Thread nD τ).loc main_arg7)) transposes_S1024x1024_S1024x1024_1_0) bitsLt_bf16_f32 := by
  show StableHlo.after (hostOps0 (F := Ideal)) (W0 m ρ c) (Proc.devRef .tc main_v5) = _
  after_results
theorem W5_v5 (c : Dev nD) : W5 m ρ c (Proc.devRef .tc main_v5) = truncf (F := Ideal) .bf16 (transpose S1024x1024 [1, 0] (m ((c : Thread nD τ).loc main_arg7)) transposes_S1024x1024_S1024x1024_1_0) bitsLt_bf16_f32 :=
  ((keepH2_v5 m ρ c).trans ((keepR1_v5 m ρ c).trans ((keepH1_v5 m ρ c).trans ((keepR0_v5 m ρ c).trans (W1_v5 m ρ c)))))
theorem W1_v7 (c : Dev nD) : W1 m ρ c (Proc.devRef .tc main_v7) = truncf (F := Ideal) .bf16 (transpose S1024x1024 [1, 0] (m ((c : Thread nD τ).loc main_arg9)) transposes_S1024x1024_S1024x1024_1_0) bitsLt_bf16_f32 := by
  show StableHlo.after (hostOps0 (F := Ideal)) (W0 m ρ c) (Proc.devRef .tc main_v7) = _
  after_results
theorem W7_v7 (c : Dev nD) : W7 m ρ c (Proc.devRef .tc main_v7) = truncf (F := Ideal) .bf16 (transpose S1024x1024 [1, 0] (m ((c : Thread nD τ).loc main_arg9)) transposes_S1024x1024_S1024x1024_1_0) bitsLt_bf16_f32 :=
  ((keepH3_v7 m ρ c).trans ((keepR2_v7 m ρ c).trans ((keepH2_v7 m ρ c).trans ((keepR1_v7 m ρ c).trans ((keepH1_v7 m ρ c).trans ((keepR0_v7 m ρ c).trans (W1_v7 m ρ c)))))))
theorem W1_v8 (c : Dev nD) : W1 m ρ c (Proc.devRef .tc main_v8) = shapeCast S8192x1024 (m ((c : Thread nD τ).loc main_arg0)) shapeCasts_S4x2048x1024_S8192x1024 := by
  show StableHlo.after (hostOps0 (F := Ideal)) (W0 m ρ c) (Proc.devRef .tc main_v8) = _
  after_results
  rfl
theorem W3_v11_raw (c : Dev nD) : W3 m ρ c (Proc.devRef .tc main_v11) = shapeCast S8192x1024 (W2 m ρ c (Proc.devRef .tc main_arg1)) shapeCasts_S4x2048x1024_S8192x1024 := by
  show StableHlo.after (hostOps1 (F := Ideal)) (W2 m ρ c) (Proc.devRef .tc main_v11) = _
  after_results
  rfl
theorem W5_v14_raw (c : Dev nD) : W5 m ρ c (Proc.devRef .tc main_v14) = shapeCast S8192x1024 (W4 m ρ c (Proc.devRef .tc main_arg2)) shapeCasts_S4x2048x1024_S8192x1024 := by
  show StableHlo.after (hostOps2 (F := Ideal)) (W4 m ρ c) (Proc.devRef .tc main_v14) = _
  after_results
  rfl
theorem W3_v10_raw (c : Dev nD) : W3 m ρ c (Proc.devRef .tc main_v10) = shapeCast S4x2048x1024 (W2 m ρ c (Proc.devRef .tc main_v9)) shapeCasts_S8192x1024_S4x2048x1024 := by
  show StableHlo.after (hostOps1 (F := Ideal)) (W2 m ρ c) (Proc.devRef .tc main_v10) = _
  after_results
  rfl
theorem W5_v13_raw (c : Dev nD) : W5 m ρ c (Proc.devRef .tc main_v13) = shapeCast S4x2048x1024 (W4 m ρ c (Proc.devRef .tc main_v12)) shapeCasts_S8192x1024_S4x2048x1024 := by
  show StableHlo.after (hostOps2 (F := Ideal)) (W4 m ρ c) (Proc.devRef .tc main_v13) = _
  after_results
  rfl
theorem W7_v16_raw (c : Dev nD) : W7 m ρ c (Proc.devRef .tc main_v16) = shapeCast S4x2048x1024 (W6 m ρ c (Proc.devRef .tc main_v15)) shapeCasts_S8192x1024_S4x2048x1024 := by
  show StableHlo.after (hostOps3 (F := Ideal)) (W6 m ρ c) (Proc.devRef .tc main_v16) = _
  after_results
  rfl
theorem W7_v10_raw (c : Dev nD) : W7 m ρ c (Proc.devRef .tc main_v10) = shapeCast S4x2048x1024 (W2 m ρ c (Proc.devRef .tc main_v9)) shapeCasts_S8192x1024_S4x2048x1024 :=
  ((keepH3_v10 m ρ c).trans ((keepR2_v10 m ρ c).trans ((keepH2_v10 m ρ c).trans ((keepR1_v10 m ρ c).trans (W3_v10_raw m ρ c)))))
theorem W7_v13_raw (c : Dev nD) : W7 m ρ c (Proc.devRef .tc main_v13) = shapeCast S4x2048x1024 (W4 m ρ c (Proc.devRef .tc main_v12)) shapeCasts_S8192x1024_S4x2048x1024 :=
  ((keepH3_v13 m ρ c).trans ((keepR2_v13 m ρ c).trans (W5_v13_raw m ρ c)))

end Cert.KernelIdeal.FoldValue

end
-- ==== Proof.ProjGlue.lean ====
/-
  A linear layer computed on the rows of a matrix, read back as an array.

  A [4, 2048, 1024] array x is viewed as the 8192 × 1024 matrix X of its rows (row 2048·b + s is the pair (b, s)),
  multiplied by the transpose of a weight W stored [out, in] (narrowed to a shorter format, which is the identity on
  the extended reals), a bias is added to every row, and the 8192 rows are viewed as a [4, 2048, 1024] array again.
  Entry (b, s, e) of the result is (Σ_k x[b, s, k] · W[e, k]) + bias[e]: the linear layer of the specification.
-/
import proofs.«135135_j1846835938037_2_alg».proof.Proof.Gen.KernelIdeal
import proofs.«135135_j1846835938037_2_alg».proof.Proof.Spec
import proofs.«135135_j1846835938037_2_alg».proof.Proof.LibLeadingAxes
import Idealize.ShloMosaic.Lib.ValueLayout
import Idealize.ShloMosaic.PureOps.Ideal

noncomputable section

open scoped BigOperators

namespace Cert.KernelIdeal.ProjGlue

open Idealize.ShloMosaic Idealize.ShloMosaic.ValueIdx

/-- The narrowed transpose of a weight at (d, e) is the weight at (e, d). -/
theorem wot_eq (W : S1024x1024.Idx → EReal) (d e : Fin 1024) :
    (truncf (F := Ideal) (φ := .f32) .bf16 (transpose S1024x1024 [1, 0] W Gen.transposes_S1024x1024_S1024x1024_1_0)
      Gen.bitsLt_bf16_f32 : S1024x1024.Idx → EReal) (ix2 d e) = Cert.Attn.wt W e d :=
  transpose_ix2_apply W Gen.transposes_S1024x1024_S1024x1024_1_0 d e

/-- The rows of x times the transposed weight, plus the bias, read back as an array, is the linear layer. -/
theorem proj_eq (x : S4x2048x1024.Idx → EReal) (W : S1024x1024.Idx → EReal) (bv : S1024.Idx → EReal)
    (X : S8192x1024.Idx → EReal) (Wt : S1024x1024.Idx → EReal)
    (hX : X = shapeCast S8192x1024 x Gen.shapeCasts_S4x2048x1024_S8192x1024)
    (hWt : Wt = truncf (F := Ideal) (φ := .f32) .bf16 (transpose S1024x1024 [1, 0] W Gen.transposes_S1024x1024_S1024x1024_1_0)
      Gen.bitsLt_bf16_f32) :
    Cert.Attn.arr (shapeCast S4x2048x1024
        (fun j : S8192x1024.Idx => (∑ k : Fin 1024, X (ix2 (j 0) k) * Wt (ix2 k (j 1))) + bv (ix1 (j 1)))
        Gen.shapeCasts_S8192x1024_S4x2048x1024)
      = Cert.Attn.linear (Cert.Attn.arr x) (Cert.Attn.wt W) (Cert.Attn.bias bv) := by
  subst hX hWt
  funext b s e
  have hb := b.isLt
  have hs := s.isLt
  refine (Cert.LibLeadingAxes.shapeCast_nc_abc_apply _ Gen.shapeCasts_S8192x1024_S4x2048x1024 b s e
    (⟨b.val * 2048 + s.val, by omega⟩ : Fin 8192) rfl).trans ?_
  show (∑ k : Fin 1024, shapeCast S8192x1024 x Gen.shapeCasts_S4x2048x1024_S8192x1024 (ix2 (⟨b.val * 2048 + s.val, by omega⟩ : Fin 8192) k)
        * (truncf (F := Ideal) (φ := .f32) .bf16 (transpose S1024x1024 [1, 0] W Gen.transposes_S1024x1024_S1024x1024_1_0)
            Gen.bitsLt_bf16_f32 : S1024x1024.Idx → EReal) (ix2 k e)) + bv (ix1 e)
      = (∑ d : Fin 1024, x (ix3 b s d) * W (ix2 e d)) + bv (ix1 e)
  refine congrArg (· + bv (ix1 e)) (Finset.sum_congr rfl fun k _ => ?_)
  rw [wot_eq, Cert.LibLeadingAxes.shapeCast_abc_nc_apply x Gen.shapeCasts_S4x2048x1024_S8192x1024 b s k
    (⟨b.val * 2048 + s.val, by omega⟩ : Fin 8192) rfl]

end Cert.KernelIdeal.ProjGlue

end
-- ==== Proof.KernelValue.lean ====
/-
  The idealized kernel computes the specification's attention, array by array.

  Each projection region leaves, in its [8192, 1024] result, row r = b·2048 + s, column e, the sum
  (Σ_k x[b, s, k] · W[e, k]) + bias[e]: its input is the argument with the two leading axes merged and its weight the
  argument matrix transposed (a narrowing of the format changes nothing on the extended reals).  Split again into
  [4, 2048, 1024], the three results are the specification's projected queries, keys and values.  The attention region
  leaves the output projection of the attention context of those three arrays, its weight again a transposed
  argument, which is the specification's result.
-/
import proofs.«135135_j1846835938037_2_alg».proof.Proof.KernelRun
import proofs.«135135_j1846835938037_2_alg».proof.Proof.AttnRegion
import proofs.«135135_j1846835938037_2_alg».proof.Proof.Linear0
import proofs.«135135_j1846835938037_2_alg».proof.Proof.Linear1
import proofs.«135135_j1846835938037_2_alg».proof.Proof.Linear2
import proofs.«135135_j1846835938037_2_alg».proof.Proof.Fold
import proofs.«135135_j1846835938037_2_alg».proof.Proof.ProjGlue

set_option maxRecDepth 16384

noncomputable section

open scoped BigOperators

namespace Cert.KernelIdeal.KernelValue

open Cert.KernelIdeal Cert.KernelIdeal.Gen Cert.KernelIdeal.FoldValue Cert.KernelIdeal.LinearValue Cert.KernelIdeal.AttnValue
open Cert.KernelIdeal.ProjGlue Cert.Attn
open Idealize.ShloMosaic Idealize.ShloMosaic.TcCoe Idealize.SL.Sem Idealize.ShloMosaic.ValueIdx

/-- The attention region's function of projected arrays that are the specification's linear layers, with the output
    weight read transposed, is the specification's whole function. -/
theorem attnArr_eq_G (Q K Vv : S4x2048x1024.Idx → EReal) (Wot : S1024x1024.Idx → EReal) (bo : S1024.Idx → EReal)
    (x0 x1 x2 : S4x2048x1024.Idx → EReal) (x3 : S1024x1024.Idx → EReal) (x4 : S1024.Idx → EReal)
    (x5 : S1024x1024.Idx → EReal) (x6 : S1024.Idx → EReal) (x7 : S1024x1024.Idx → EReal) (x8 : S1024.Idx → EReal)
    (x9 : S1024x1024.Idx → EReal) (x10 : S1024.Idx → EReal)
    (hQ : arr Q = linear (arr x0) (wt x3) (bias x4)) (hK : arr K = linear (arr x1) (wt x5) (bias x6))
    (hV : arr Vv = linear (arr x2) (wt x7) (bias x8)) (hW : ∀ d e : Fin 1024, Wot (ix2 d e) = wt x9 e d) (hb : bo = x10) :
    attnArr Q K Vv Wot bo = G x0 x1 x2 x3 x4 x5 x6 x7 x8 x9 x10 := by
  subst hb
  funext j
  unfold attnArr G attn
  rw [hQ, hK, hV]
  show _ = (∑ d : Fin 1024, ctx (linear (arr x0) (wt x3) (bias x4)) (linear (arr x1) (wt x5) (bias x6))
      (linear (arr x2) (wt x7) (bias x8)) (j 0) (j 1) d * wt x9 (j 2) d) + bias bo (j 2)
  refine congrArg (· + _) (Finset.sum_congr rfl fun d _ => ?_)
  exact congrArg (fun z => _ * z) (hW d (j 2))

variable (m : (ℓ : Loc nD τ sig) → Buf (Elt Ideal) ℓ) (ρ : Dev nD → PrngReg)

/-- The projected queries the attention region reads. -/
theorem projQ (c : Dev nD) : arr (V7 m ρ c main_v10) = linear (arr (m ((c : Thread nD τ).loc main_arg0))) (wt (m ((c : Thread nD τ).loc main_arg3))) (bias (m ((c : Thread nD τ).loc main_arg4))) := by
  have e1 : V7 m ρ c main_v10 = shapeCast S4x2048x1024 (W2 m ρ c (Proc.devRef .tc main_v9)) shapeCasts_S8192x1024_S4x2048x1024 :=
    W7_v10_raw m ρ c
  have e2 : W2 m ρ c (Proc.devRef .tc main_v9) = (dat0 (F := Ideal) (V1 m ρ) c).arrAt 3 cfg0.N := W2_arr m ρ c 3
  have e3 : inB0 (V1 m ρ) c = (m ((c : Thread nD τ).loc main_arg4)) := W1_arg4 m ρ c
  rw [e1, e2, arrAt0 (V1 m ρ) c, e3]
  exact proj_eq _ _ _ (inX0 (V1 m ρ) c) (inW0 (V1 m ρ) c) (W1_v8 m ρ c) (W1_v1 m ρ c)

/-- The projected keys the attention region reads. -/
theorem projK (c : Dev nD) : arr (V7 m ρ c main_v13) = linear (arr (m ((c : Thread nD τ).loc main_arg1))) (wt (m ((c : Thread nD τ).loc main_arg5))) (bias (m ((c : Thread nD τ).loc main_arg6))) := by
  have e1 : V7 m ρ c main_v13 = shapeCast S4x2048x1024 (W4 m ρ c (Proc.devRef .tc main_v12)) shapeCasts_S8192x1024_S4x2048x1024 :=
    W7_v13_raw m ρ c
  have e2 : W4 m ρ c (Proc.devRef .tc main_v12) = (dat1 (F := Ideal) (V3 m ρ) c).arrAt 3 cfg1.N := W4_arr m ρ c 3
  have e3 : inB1 (V3 m ρ) c = (m ((c : Thread nD τ).loc main_arg6)) := W3_arg6 m ρ c
  have hX : inX1 (V3 m ρ) c = shapeCast S8192x1024 (m ((c : Thread nD τ).loc main_arg1)) shapeCasts_S4x2048x1024_S8192x1024 :=
    (W3_v11_raw m ρ c).trans (by rw [W2_arg1])
  rw [e1, e2, arrAt1 (V3 m ρ) c, e3]
  exact proj_eq _ _ _ (inX1 (V3 m ρ) c) (inW1 (V3 m ρ) c) hX (W3_v3 m ρ c)

/-- The projected values the attention region reads. -/
theorem projV (c : Dev nD) : arr (V7 m ρ c main_v16) = linear (arr (m ((c : Thread nD τ).loc main_arg2))) (wt (m ((c : Thread nD τ).loc main_arg7))) (bias (m ((c : Thread nD τ).loc main_arg8))) := by
  have e1 : V7 m ρ c main_v16 = shapeCast S4x2048x1024 (W6 m ρ c (Proc.devRef .tc main_v15)) shapeCasts_S8192x1024_S4x2048x1024 :=
    W7_v16_raw m ρ c
  have e2 : W6 m ρ c (Proc.devRef .tc main_v15) = (dat2 (F := Ideal) (V5 m ρ) c).arrAt 3 cfg2.N := W6_arr m ρ c 3
  have e3 : inB2 (V5 m ρ) c = (m ((c : Thread nD τ).loc main_arg8)) := W5_arg8 m ρ c
  have hX : inX2 (V5 m ρ) c = shapeCast S8192x1024 (m ((c : Thread nD τ).loc main_arg2)) shapeCasts_S4x2048x1024_S8192x1024 :=
    (W5_v14_raw m ρ c).trans (by rw [W4_arg2])
  rw [e1, e2, arrAt2 (V5 m ρ) c, e3]
  exact proj_eq _ _ _ (inX2 (V5 m ρ) c) (inW2 (V5 m ρ) c) hX (W5_v5 m ρ c)

/-- The result buffer after the last region holds the specification's function of the eleven argument arrays. -/
theorem result_eq (c : Dev nD) : W8 m ρ c (Proc.devRef .tc main_v17)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h8 : W8 m ρ c (Proc.devRef .tc main_v17) = (dat3 (F := Ideal) (V7 m ρ) c).arrAt 5 cfg3.N := W8_arr m ρ c 5
  have hW : ∀ d e : Fin 1024, (V7 m ρ c main_v7 : S1024x1024.Idx → EReal) (ix2 d e) = wt (m ((c : Thread nD τ).loc main_arg9)) e d := fun d e => by
    have e7 : V7 m ρ c main_v7 = truncf (F := Ideal) .bf16 (transpose S1024x1024 [1, 0] (m ((c : Thread nD τ).loc main_arg9)) transposes_S1024x1024_S1024x1024_1_0) bitsLt_bf16_f32 := W7_v7 m ρ c
    rw [e7]
    exact wot_eq _ d e
  exact h8.trans ((arrAt5 (V7 m ρ) c).trans (attnArr_eq_G _ _ _ _ _ _ _ _ _ _ _ _ _ _ _ _
    (projQ m ρ c) (projK m ρ c) (projV m ρ c) hW (W7_arg10 m ρ c)))

end Cert.KernelIdeal.KernelValue

end
-- ==== Proof.RefLinear.lean ====
/-
  The reference's three input projections, read at an entry.

  Each projection is a contraction of a [4, 2048, 1024] array with a [1024, 1024] weight over the weight's second
  axis, plus a bias spread over the two leading axes: at (b, s, e) it is (Σ_d x[b, s, d] · W[e, d]) + bias[e].
  The reference then views a row of 1024 entries as 16 heads of 64 and moves the head axis in front of the row
  axis: entry (b, h, s, d) of the result is entry (b, s, 64·h + d) of the projection, because the row-major position
  ((b·2048 + s)·16 + h)·64 + d is (b·2048 + s)·1024 + (64·h + d).
-/
import proofs.«135135_j1846835938037_2_alg».proof.Proof.Gen.ReferenceIdeal.Read
import proofs.«135135_j1846835938037_2_alg».proof.Proof.Spec

noncomputable section

open scoped BigOperators

namespace Cert.ReferenceIdeal.RefValue

open Cert.ReferenceIdeal Cert.ReferenceIdeal.Gen Idealize.ShloMosaic Idealize.ShloMosaic.ValueIdx Cert.Attn

/-- The row-major position of (b, s, h, d) in [4, 2048, 16, 64] read back in [4, 2048, 1024] is (b, s, 64·h + d). -/
theorem split_heads_idx (b : Fin 4) (h : Fin 16) (s : Fin 2048) (d : Fin 64) :
    Read.idx_main_v4 (Read.idx_main_v5 (ix4 b h s d)) = ix3 b s (col h d) := by
  have hb := b.isLt; have hh := h.isLt; have hs := s.isLt; have hd := d.isLt
  funext a
  apply Fin.ext
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = 64 * h.val + d.val; omega

theorem lhs_idx_q (b : Fin 4) (s : Fin 2048) (e k : Fin 1024) : Read.lidx_main_v0 (ix3 b s e) k = ix3 b s k :=
  funext fun a => Fin.ext (by match a with | ⟨0, _⟩ => rfl | ⟨1, _⟩ => rfl | ⟨2, _⟩ => rfl)
theorem rhs_idx_q (b : Fin 4) (s : Fin 2048) (e k : Fin 1024) : Read.ridx_main_v0 (ix3 b s e) k = ix2 e k :=
  funext fun a => Fin.ext (by match a with | ⟨0, _⟩ => rfl | ⟨1, _⟩ => rfl)
theorem bias_idx_q (b : Fin 4) (s : Fin 2048) (e : Fin 1024) : Read.idx_main_v1 (Read.idx_main_v2 (ix3 b s e)) = ix1 e :=
  funext fun a => Fin.ext (by match a with | ⟨0, _⟩ => rfl)
theorem lhs_idx_k (b : Fin 4) (s : Fin 2048) (e k : Fin 1024) : Read.lidx_main_v6 (ix3 b s e) k = ix3 b s k :=
  funext fun a => Fin.ext (by match a with | ⟨0, _⟩ => rfl | ⟨1, _⟩ => rfl | ⟨2, _⟩ => rfl)
theorem rhs_idx_k (b : Fin 4) (s : Fin 2048) (e k : Fin 1024) : Read.ridx_main_v6 (ix3 b s e) k = ix2 e k :=
  funext fun a => Fin.ext (by match a with | ⟨0, _⟩ => rfl | ⟨1, _⟩ => rfl)
theorem bias_idx_k (b : Fin 4) (s : Fin 2048) (e : Fin 1024) : Read.idx_main_v7 (Read.idx_main_v8 (ix3 b s e)) = ix1 e :=
  funext fun a => Fin.ext (by match a with | ⟨0, _⟩ => rfl)
theorem lhs_idx_v (b : Fin 4) (s : Fin 2048) (e k : Fin 1024) : Read.lidx_main_v12 (ix3 b s e) k = ix3 b s k :=
  funext fun a => Fin.ext (by match a with | ⟨0, _⟩ => rfl | ⟨1, _⟩ => rfl | ⟨2, _⟩ => rfl)
theorem rhs_idx_v (b : Fin 4) (s : Fin 2048) (e k : Fin 1024) : Read.ridx_main_v12 (ix3 b s e) k = ix2 e k :=
  funext fun a => Fin.ext (by match a with | ⟨0, _⟩ => rfl | ⟨1, _⟩ => rfl)
theorem bias_idx_v (b : Fin 4) (s : Fin 2048) (e : Fin 1024) : Read.idx_main_v13 (Read.idx_main_v14 (ix3 b s e)) = ix1 e :=
  funext fun a => Fin.ext (by match a with | ⟨0, _⟩ => rfl)
theorem split_heads_idx_k (b : Fin 4) (h : Fin 16) (s : Fin 2048) (d : Fin 64) :
    Read.idx_main_v10 (Read.idx_main_v11 (ix4 b h s d)) = ix3 b s (col h d) := by
  have hb := b.isLt; have hh := h.isLt; have hs := s.isLt; have hd := d.isLt
  funext a
  apply Fin.ext
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = 64 * h.val + d.val; omega
theorem split_heads_idx_v (b : Fin 4) (h : Fin 16) (s : Fin 2048) (d : Fin 64) :
    Read.idx_main_v16 (Read.idx_main_v17 (ix4 b h s d)) = ix3 b s (col h d) := by
  have hb := b.isLt; have hh := h.isLt; have hs := s.isLt; have hd := d.isLt
  funext a
  apply Fin.ext
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = 64 * h.val + d.val; omega

/-- The query projection at (b, s, e). -/
theorem proj_q_apply (x0 : (⟨S4x2048x1024, .f32⟩ : BufTy).Contents (Elt Ideal)) (x3 : (⟨S1024x1024, .f32⟩ : BufTy).Contents (Elt Ideal))
    (x4 : (⟨S1024, .f32⟩ : BufTy).Contents (Elt Ideal)) (b : Fin 4) (s : Fin 2048) (e : Fin 1024) :
    Read.val_main_v3 (F := Ideal) x0 x3 x4 (ix3 b s e) = linear (arr x0) (wt x3) (bias x4) b s e := by
  rw [Read.val_main_v3_apply, Read.val_main_v0_apply, Read.val_main_v2_apply, Read.val_main_v1_apply]
  show (∑ k : Fin 1024, x0 (Read.lidx_main_v0 (ix3 b s e) k) * x3 (Read.ridx_main_v0 (ix3 b s e) k))
      + x4 (Read.idx_main_v1 (Read.idx_main_v2 (ix3 b s e))) = (∑ d : Fin 1024, x0 (ix3 b s d) * x3 (ix2 e d)) + x4 (ix1 e)
  rw [bias_idx_q]
  exact congrArg (· + x4 (ix1 e)) (Finset.sum_congr rfl fun k _ => by rw [lhs_idx_q, rhs_idx_q])

/-- The key projection at (b, s, e). -/
theorem proj_k_apply (x1 : (⟨S4x2048x1024, .f32⟩ : BufTy).Contents (Elt Ideal)) (x5 : (⟨S1024x1024, .f32⟩ : BufTy).Contents (Elt Ideal))
    (x6 : (⟨S1024, .f32⟩ : BufTy).Contents (Elt Ideal)) (b : Fin 4) (s : Fin 2048) (e : Fin 1024) :
    Read.val_main_v9 (F := Ideal) x1 x5 x6 (ix3 b s e) = linear (arr x1) (wt x5) (bias x6) b s e := by
  rw [Read.val_main_v9_apply, Read.val_main_v6_apply, Read.val_main_v8_apply, Read.val_main_v7_apply]
  show (∑ k : Fin 1024, x1 (Read.lidx_main_v6 (ix3 b s e) k) * x5 (Read.ridx_main_v6 (ix3 b s e) k))
      + x6 (Read.idx_main_v7 (Read.idx_main_v8 (ix3 b s e))) = (∑ d : Fin 1024, x1 (ix3 b s d) * x5 (ix2 e d)) + x6 (ix1 e)
  rw [bias_idx_k]
  exact congrArg (· + x6 (ix1 e)) (Finset.sum_congr rfl fun k _ => by rw [lhs_idx_k, rhs_idx_k])

/-- The value projection at (b, s, e). -/
theorem proj_v_apply (x2 : (⟨S4x2048x1024, .f32⟩ : BufTy).Contents (Elt Ideal)) (x7 : (⟨S1024x1024, .f32⟩ : BufTy).Contents (Elt Ideal))
    (x8 : (⟨S1024, .f32⟩ : BufTy).Contents (Elt Ideal)) (b : Fin 4) (s : Fin 2048) (e : Fin 1024) :
    Read.val_main_v15 (F := Ideal) x2 x7 x8 (ix3 b s e) = linear (arr x2) (wt x7) (bias x8) b s e := by
  rw [Read.val_main_v15_apply, Read.val_main_v12_apply, Read.val_main_v14_apply, Read.val_main_v13_apply]
  show (∑ k : Fin 1024, x2 (Read.lidx_main_v12 (ix3 b s e) k) * x7 (Read.ridx_main_v12 (ix3 b s e) k))
      + x8 (Read.idx_main_v13 (Read.idx_main_v14 (ix3 b s e))) = (∑ d : Fin 1024, x2 (ix3 b s d) * x7 (ix2 e d)) + x8 (ix1 e)
  rw [bias_idx_v]
  exact congrArg (· + x8 (ix1 e)) (Finset.sum_congr rfl fun k _ => by rw [lhs_idx_v, rhs_idx_v])

/-- The queries by head: entry (b, h, s, d) is the query projection at (b, s, 64·h + d). -/
theorem heads_q_apply (x0 : (⟨S4x2048x1024, .f32⟩ : BufTy).Contents (Elt Ideal)) (x3 : (⟨S1024x1024, .f32⟩ : BufTy).Contents (Elt Ideal))
    (x4 : (⟨S1024, .f32⟩ : BufTy).Contents (Elt Ideal)) (b : Fin 4) (h : Fin 16) (s : Fin 2048) (d : Fin 64) :
    Read.val_main_v5 (F := Ideal) x0 x3 x4 (ix4 b h s d) = linear (arr x0) (wt x3) (bias x4) b s (col h d) := by
  rw [Read.val_main_v5_apply, Read.val_main_v4_apply, split_heads_idx, proj_q_apply]

/-- The keys by head. -/
theorem heads_k_apply (x1 : (⟨S4x2048x1024, .f32⟩ : BufTy).Contents (Elt Ideal)) (x5 : (⟨S1024x1024, .f32⟩ : BufTy).Contents (Elt Ideal))
    (x6 : (⟨S1024, .f32⟩ : BufTy).Contents (Elt Ideal)) (b : Fin 4) (h : Fin 16) (s : Fin 2048) (d : Fin 64) :
    Read.val_main_v11 (F := Ideal) x1 x5 x6 (ix4 b h s d) = linear (arr x1) (wt x5) (bias x6) b s (col h d) := by
  rw [Read.val_main_v11_apply, Read.val_main_v10_apply, split_heads_idx_k, proj_k_apply]

/-- The values by head. -/
theorem heads_v_apply (x2 : (⟨S4x2048x1024, .f32⟩ : BufTy).Contents (Elt Ideal)) (x7 : (⟨S1024x1024, .f32⟩ : BufTy).Contents (Elt Ideal))
    (x8 : (⟨S1024, .f32⟩ : BufTy).Contents (Elt Ideal)) (b : Fin 4) (h : Fin 16) (s : Fin 2048) (d : Fin 64) :
    Read.val_main_v17 (F := Ideal) x2 x7 x8 (ix4 b h s d) = linear (arr x2) (wt x7) (bias x8) b s (col h d) := by
  rw [Read.val_main_v17_apply, Read.val_main_v16_apply, split_heads_idx_v, proj_v_apply]

end Cert.ReferenceIdeal.RefValue

end
-- ==== Proof.RefScores.lean ====
/-
  The reference's scaled scores, read at an entry.

  The scores contract the queries and keys of one batch and one head over the 64 coordinates of the head, and are
  then divided by the square root of the constant 64, which on the extended reals is a multiplication by 1/8:
      scores[b, h, s, t] = (Σ_{d < 64} q[b, s, 64h + d] · k[b, t, 64h + d]) · 1/8.
-/
import proofs.«135135_j1846835938037_2_alg».proof.Proof.RefLinear

noncomputable section

open scoped BigOperators

namespace Cert.ReferenceIdeal.RefValue

open Cert.ReferenceIdeal Cert.ReferenceIdeal.Gen Idealize.ShloMosaic Idealize.ShloMosaic.ValueIdx Cert.Attn

theorem scores_entry (q k : Arr) (b : Fin 4) (h : Fin 16) (s t : Fin 2048) :
    scores q k b h s t = (∑ d : Fin 64, q b s (col h d) * k b t (col h d)) * (((1 / 8 : ℝ) : ℝ) : EReal) := rfl

theorem lhs_idx_scores (b : Fin 4) (h : Fin 16) (s t : Fin 2048) (d : Fin 64) : Read.lidx_main_v18 (ix4 b h s t) d = ix4 b h s d :=
  funext fun a => Fin.ext (by match a with | ⟨0, _⟩ => rfl | ⟨1, _⟩ => rfl | ⟨2, _⟩ => rfl | ⟨3, _⟩ => rfl)

theorem rhs_idx_scores (b : Fin 4) (h : Fin 16) (s t : Fin 2048) (d : Fin 64) : Read.ridx_main_v18 (ix4 b h s t) d = ix4 b h t d :=
  funext fun a => Fin.ext (by match a with | ⟨0, _⟩ => rfl | ⟨1, _⟩ => rfl | ⟨2, _⟩ => rfl | ⟨3, _⟩ => rfl)

/-- The scaled scores at (b, h, s, t). -/
theorem scores_apply (x0 x1 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (b : Fin 4) (h : Fin 16) (s t : Fin 2048) :
    Read.val_main_v21 (F := Ideal) x0 x1 x3 x4 x5 x6 (ix4 b h s t) = scores (linear (arr x0) (wt x3) (bias x4)) (linear (arr x1) (wt x5) (bias x6)) b h s t := by
  rw [Read.val_main_v21_apply, Read.val_main_v18_apply, Read.val_main_v20_apply, Read.val_main_v19_apply, Read.val_main_cst_apply]
  refine (div_sqrt_64 _).trans ?_
  rw [scores_entry]
  refine congrArg (· * (((1 / 8 : ℝ) : ℝ) : EReal)) (Finset.sum_congr rfl fun d _ => ?_)
  rw [lhs_idx_scores, rhs_idx_scores, heads_q_apply, heads_k_apply]

end Cert.ReferenceIdeal.RefValue

end
-- ==== Proof.RefSoftmax.lean ====
/-
  The reference's attention weights, read at an entry.

  The reference takes the maximum of every row of the scores from minus infinity (a reduction over the last axis),
  takes the maximum of that with minus infinity once more, which changes nothing, subtracts it from the row, takes
  exponentials, sums them along the row from zero and divides: at (b, h, s, t) this is the softmax of row s of the
  2048 × 2048 matrix scores[b, h], at column t.
-/
import proofs.«135135_j1846835938037_2_alg».proof.Proof.RefScores
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx Cert.Attn Cert.LibSoftmaxRows

/-- The reduced index (b, h, s) with coordinate t put back on the last axis is (b, h, s, t). -/
theorem lift_last (hR : S4x16x2048x2048.Reduces [3] S4x16x2048) (b : Fin 4) (h : Fin 16) (s : Fin 2048)
    (t : Fin (S4x16x2048x2048.size 3)) : hR.lift (ix3 b h s) t = ix4 b h s (⟨t.val, t.isLt⟩ : Fin 2048) := by
  funext c
  apply Fin.ext
  match c with
  | ⟨0, _⟩ => rfl
  | ⟨1, _⟩ => rfl
  | ⟨2, _⟩ => rfl
  | ⟨3, _⟩ => rfl

/-- A maximum over the last axis of a [4, 16, 2048, 2048] array, at (b, h, s), is the maximum from the starting value
    over the entries (b, h, s, t). -/
theorem hostReduce_max_lastAxis (y : FVec Ideal S4x16x2048x2048 .f32) (init : FVec Ideal S_ .f32)
    (h' : S4x16x2048x2048.ReducesTo [3] S4x16x2048) (hu : 0 < S_.numel) (b : Fin 4) (h : Fin 16) (s : Fin 2048) :
    Host.reduce (FloatOps.maximumf (F := Ideal) (φ := .f32)) y init h' hu (ix3 b h s)
      = (Finset.univ : Finset (Fin 2048)).fold max (init (Shape.Idx.first hu)) (fun t => y (ix4 b h s t)) := by
  have hR : S4x16x2048x2048.Reduces [3] S4x16x2048 := by decide
  rw [Host.reduce_eq_fold_single (FloatOps.maximumf (F := Ideal) (φ := .f32)) y init h' hR hu]
  have hf : (y ∘ hR.lift (ix3 b h s)) = fun t : Fin 2048 => y (ix4 b h s t) :=
    funext fun t => congrArg y (lift_last hR b h s t)
  exact congrArg (fun f => Finset.fold max (init (Shape.Idx.first hu)) f (Finset.univ : Finset (Fin 2048))) hf

theorem row_idx_max (b : Fin 4) (h : Fin 16) (s t : Fin 2048) : Read.idx_main_v25 (Read.idx_main_v26 (ix4 b h s t)) = ix3 b h s :=
  funext fun a => Fin.ext (by match a with | ⟨0, _⟩ => rfl | ⟨1, _⟩ => rfl | ⟨2, _⟩ => rfl)

theorem row_idx_sum (b : Fin 4) (h : Fin 16) (s t : Fin 2048) : Read.idx_main_v30 (Read.idx_main_v31 (ix4 b h s t)) = ix3 b h s :=
  funext fun a => Fin.ext (by match a with | ⟨0, _⟩ => rfl | ⟨1, _⟩ => rfl | ⟨2, _⟩ => rfl)

theorem sum_idx (b : Fin 4) (h : Fin 16) (s c : Fin 2048) : Read.idx_main_v29 (ix3 b h s) c = ix4 b h s c :=
  funext fun a => Fin.ext (by match a with | ⟨0, _⟩ => rfl | ⟨1, _⟩ => rfl | ⟨2, _⟩ => rfl | ⟨3, _⟩ => rfl)

/-- The row maximum, taken once more against minus infinity, at (b, h, s). -/
theorem rowMax_apply (x0 x1 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (b : Fin 4) (h : Fin 16) (s : Fin 2048) :
    Read.val_main_v24 (F := Ideal) x0 x1 x3 x4 x5 x6 (ix3 b h s) = rowMax (scores (linear (arr x0) (wt x3) (bias x4)) (linear (arr x1) (wt x5) (bias x6)) b h) s := by
  rw [Read.val_main_v24_apply, Read.val_main_v23_apply, Read.val_main_cst_1_apply]
  unfold Read.val_main_v22
  rw [hostReduce_max_lastAxis]
  have hs : (fun t : Fin 2048 => Read.val_main_v21 (F := Ideal) x0 x1 x3 x4 x5 x6 (ix4 b h s t))
      = fun t => scores (linear (arr x0) (wt x3) (bias x4)) (linear (arr x1) (wt x5) (bias x6)) b h s t :=
    funext fun t => scores_apply x0 x1 x3 x4 x5 x6 b h s t
  rw [hs]
  exact max_fold_max negInf (fun t => scores (linear (arr x0) (wt x3) (bias x4)) (linear (arr x1) (wt x5) (bias x6)) b h s t)

/-- The shifted exponentials at (b, h, s, t). -/
theorem expShift_apply (x0 x1 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (b : Fin 4) (h : Fin 16) (s t : Fin 2048) :
    Read.val_main_v28 (F := Ideal) x0 x1 x3 x4 x5 x6 (ix4 b h s t) = expShift (scores (linear (arr x0) (wt x3) (bias x4)) (linear (arr x1) (wt x5) (bias x6)) b h) s t := by
  rw [Read.val_main_v28_apply, Read.val_main_v27_apply, Read.val_main_v26_apply, Read.val_main_v25_apply, row_idx_max,
    rowMax_apply, scores_apply]
  rfl

/-- The attention weights at (b, h, s, t). -/
theorem probs_apply (x0 x1 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (b : Fin 4) (h : Fin 16) (s t : Fin 2048) :
    Read.val_main_v32 (F := Ideal) x0 x1 x3 x4 x5 x6 (ix4 b h s t) = probs (linear (arr x0) (wt x3) (bias x4)) (linear (arr x1) (wt x5) (bias x6)) b h s t := by
  rw [Read.val_main_v32_apply, Read.val_main_v31_apply, Read.val_main_v30_apply, Read.val_main_v29_apply,
    Read.val_main_cst_2_apply, row_idx_sum, expShift_apply]
  show Ideal.div (expShift (scores (linear (arr x0) (wt x3) (bias x4)) (linear (arr x1) (wt x5) (bias x6)) b h) s t)
      (Ideal.ofBits .f32 0x00000000#32 + ∑ c : Fin 2048, Read.val_main_v28 (F := Ideal) x0 x1 x3 x4 x5 x6 (Read.idx_main_v29 (ix3 b h s) c))
    = Ideal.div (expShift (scores (linear (arr x0) (wt x3) (bias x4)) (linear (arr x1) (wt x5) (bias x6)) b h) s t) (∑ c : Fin 2048, expShift (scores (linear (arr x0) (wt x3) (bias x4)) (linear (arr x1) (wt x5) (bias x6)) b h) s c)
  rw [Ideal.ofBits_zero_f32, zero_add]
  exact congrArg (Ideal.div _) (Finset.sum_congr rfl fun c _ => by rw [sum_idx, expShift_apply])

end Cert.ReferenceIdeal.RefValue

end
-- ==== Proof.RefCtx.lean ====
/-
  The reference's context rows, read at an entry.

  For one batch and one head the attention weights multiply the values of that head: entry (b, h, s, d) is
  Σ_t probs[b, h][s, t] · v[b, t, 64h + d].  The reference then moves the head axis behind the row axis and merges
  the 16 heads of 64 coordinates into one row of 1024: entry (b, s, e) of the result is entry (b, e / 64, s, e mod 64)
  of the product, because the row-major position (b·2048 + s)·1024 + e is ((b·2048 + s)·16 + e / 64)·64 + e mod 64,
  and 64·(e / 64) + e mod 64 = e.
-/
import proofs.«135135_j1846835938037_2_alg».proof.Proof.RefSoftmax

noncomputable section

open scoped BigOperators

namespace Cert.ReferenceIdeal.RefValue

open Cert.ReferenceIdeal Cert.ReferenceIdeal.Gen Idealize.ShloMosaic Idealize.ShloMosaic.ValueIdx Cert.Attn Cert.LibSoftmaxRows

/-- The coordinate of column e inside its head. -/
def inHead (e : Fin 1024) : Fin 64 := ⟨e.val % 64, Nat.mod_lt _ (by decide)⟩

theorem col_headOf_inHead (e : Fin 1024) : col (headOf e) (inHead e) = e :=
  Fin.ext (by show 64 * (e.val / 64) + e.val % 64 = e.val; omega)

theorem ctx_entry (q k v : Arr) (b : Fin 4) (s : Fin 2048) (e : Fin 1024) :
    ctx q k v b s e = ∑ t : Fin 2048, probs q k b (headOf e) s t * v b t e := rfl

/-- The row-major position of (b, s, e) in [4, 2048, 1024] read back in [4, 2048, 16, 64] and with the head axis moved
    in front of the row axis is (b, e / 64, s, e mod 64). -/
theorem merge_heads_idx (b : Fin 4) (s : Fin 2048) (e : Fin 1024) :
    Read.idx_main_v34 (Read.idx_main_v35 (ix3 b s e)) = ix4 b (headOf e) s (inHead e) := by
  have hb := b.isLt; have hs := s.isLt; have he := e.isLt
  funext a
  apply Fin.ext
  match a with
  | ⟨0, _⟩ => show ((b.val * 2048 + s.val) * 1024 + e.val) / 2097152 = b.val; omega
  | ⟨1, _⟩ => show ((b.val * 2048 + s.val) * 1024 + e.val) / 64 % 16 = e.val / 64; omega
  | ⟨2, _⟩ => show ((b.val * 2048 + s.val) * 1024 + e.val) / 1024 % 2048 = s.val; omega
  | ⟨3, _⟩ => show ((b.val * 2048 + s.val) * 1024 + e.val) % 64 = e.val % 64; omega

theorem lhs_idx_ctx (b : Fin 4) (h : Fin 16) (s : Fin 2048) (d : Fin 64) (t : Fin 2048) : Read.lidx_main_v33 (ix4 b h s d) t = ix4 b h s t :=
  funext fun a => Fin.ext (by match a with | ⟨0, _⟩ => rfl | ⟨1, _⟩ => rfl | ⟨2, _⟩ => rfl | ⟨3, _⟩ => rfl)

theorem rhs_idx_ctx (b : Fin 4) (h : Fin 16) (s : Fin 2048) (d : Fin 64) (t : Fin 2048) : Read.ridx_main_v33 (ix4 b h s d) t = ix4 b h t d :=
  funext fun a => Fin.ext (by match a with | ⟨0, _⟩ => rfl | ⟨1, _⟩ => rfl | ⟨2, _⟩ => rfl | ⟨3, _⟩ => rfl)

/-- The merged context rows at (b, s, e). -/
theorem ctx_apply (x0 x1 x2 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal))
    (b : Fin 4) (s : Fin 2048) (e : Fin 1024) :
    Read.val_main_v35 (F := Ideal) x0 x1 x2 x3 x4 x5 x6 x7 x8 (ix3 b s e) = ctx (linear (arr x0) (wt x3) (bias x4)) (linear (arr x1) (wt x5) (bias x6)) (linear (arr x2) (wt x7) (bias x8)) b s e := by
  rw [Read.val_main_v35_apply, Read.val_main_v34_apply, merge_heads_idx, Read.val_main_v33_apply, ctx_entry]
  refine Finset.sum_congr rfl fun t _ => ?_
  rw [lhs_idx_ctx, rhs_idx_ctx, probs_apply, heads_v_apply, col_headOf_inHead]

end Cert.ReferenceIdeal.RefValue

end
-- ==== Proof.RefValue.lean ====
/-
  The reference computes multi-head attention, entry by entry.

  The last layer contracts the merged context rows with the output weight over its second axis and adds the output
  bias: at (b, s, e) it is (Σ_d ctx[b, s, d] · Wo[e, d]) + bo[e], which is the specification's function of the eleven
  argument arrays.  Every step along the way is an identity of sums term by term, so nothing is assumed of the inputs.
-/
import proofs.«135135_j1846835938037_2_alg».proof.Proof.RefCtx

noncomputable section

open scoped BigOperators

namespace Cert.ReferenceIdeal.RefValue

open Cert.ReferenceIdeal Cert.ReferenceIdeal.Gen Idealize.ShloMosaic Idealize.ShloMosaic.ValueIdx Cert.Attn

theorem lhs_idx_out (b : Fin 4) (s : Fin 2048) (e k : Fin 1024) : Read.lidx_main_v36 (ix3 b s e) k = ix3 b s k :=
  funext fun a => Fin.ext (by match a with | ⟨0, _⟩ => rfl | ⟨1, _⟩ => rfl | ⟨2, _⟩ => rfl)
theorem rhs_idx_out (b : Fin 4) (s : Fin 2048) (e k : Fin 1024) : Read.ridx_main_v36 (ix3 b s e) k = ix2 e k :=
  funext fun a => Fin.ext (by match a with | ⟨0, _⟩ => rfl | ⟨1, _⟩ => rfl)
theorem bias_idx_out (b : Fin 4) (s : Fin 2048) (e : Fin 1024) : Read.idx_main_v37 (Read.idx_main_v38 (ix3 b s e)) = ix1 e :=
  funext fun a => Fin.ext (by match a with | ⟨0, _⟩ => rfl)

/-- The reference's result at (b, s, e). -/
theorem ref_apply (x0 x1 x2 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (x9 : (⟨S1024x1024, .f32⟩ : BufTy).Contents (Elt Ideal))
    (x10 : (⟨S1024, .f32⟩ : BufTy).Contents (Elt Ideal))
    (b : Fin 4) (s : Fin 2048) (e : Fin 1024) :
    Read.val_main_v39 (F := Ideal) x0 x1 x2 x3 x4 x5 x6 x7 x8 x9 x10 (ix3 b s e)
      = attn (arr x0) (arr x1) (arr x2) (wt x3) (bias x4) (wt x5) (bias x6) (wt x7) (bias x8) (wt x9) (bias x10) b s e := by
  rw [Read.val_main_v39_apply, Read.val_main_v36_apply, Read.val_main_v38_apply, Read.val_main_v37_apply, bias_idx_out]
  show (∑ k : Fin 1024, Read.val_main_v35 (F := Ideal) x0 x1 x2 x3 x4 x5 x6 x7 x8 (Read.lidx_main_v36 (ix3 b s e) k)
        * x9 (Read.ridx_main_v36 (ix3 b s e) k)) + x10 (ix1 e)
    = (∑ d : Fin 1024, ctx (linear (arr x0) (wt x3) (bias x4)) (linear (arr x1) (wt x5) (bias x6)) (linear (arr x2) (wt x7) (bias x8)) b s d * x9 (ix2 e d)) + x10 (ix1 e)
  exact congrArg (· + x10 (ix1 e)) (Finset.sum_congr rfl fun k _ => by rw [lhs_idx_out, rhs_idx_out, ctx_apply])

/-- The reference's result array is the specification's function of the eleven argument arrays. -/
theorem ref_eq_G (x0 x1 x2 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (x9 : (⟨S1024x1024, .f32⟩ : BufTy).Contents (Elt Ideal))
    (x10 : (⟨S1024, .f32⟩ : BufTy).Contents (Elt Ideal)) :
    Cert.ReferenceIdeal.Read.val_main_v39 (F := Ideal) x0 x1 x2 x3 x4 x5 x6 x7 x8 x9 x10 = Cert.Attn.G x0 x1 x2 x3 x4 x5 x6 x7 x8 x9 x10 := by
  funext i
  obtain ⟨b, s, e, rfl⟩ : ∃ (b : Fin 4) (s : Fin 2048) (e : Fin 1024), i = ix3 b s e := ⟨i 0, i 1, i 2, eq_ix3 i⟩
  exact ref_apply x0 x1 x2 x3 x4 x5 x6 x7 x8 x9 x10 b s e

end Cert.ReferenceIdeal.RefValue

end
-- ==== Proof.lean ====
/-
  Multi-head attention: a kernel of four regions against a host program, equal on the extended reals.

  The kernel projects the queries, keys and values in three regions of the same body (a [1024, 1024] block of rows
  times a transposed weight, plus a bias), and in a fourth region, for each batch element and each block of 256 query
  rows, runs the sixteen heads (scores of 64 columns against all 2048 keys, times 1/8; softmax of every row; product with
  the head's columns of the values), lays the heads' outputs side by side and applies the output projection.  The
  host program computes the same sums with the heads as a separate axis, dividing the scores by the square root of 64.

  Both are the one function `Cert.Attn.G` of the eleven argument arrays, entry by entry: every sum on either side is
  over the same finite index set with the same terms in the same order of multiplication, dividing by the square
  root of 64 is multiplying by 1/8 on every extended real, and a narrowing of the float format is the identity.  No
  step needs the inputs to be finite.  The kernel's side is read off its run (the result buffer after the last
  region, each region's result array as its blocks' function, each operand read back to the launch); the host
  program's side off its run, one operation at a time.  The three programs' frames are their runs with the result
  forgotten, and the idealized kernel is the printed kernel's own text, so nothing is owed for the idealization.
-/
import proofs.«135135_j1846835938037_2_alg».proof.Defs
import proofs.«135135_j1846835938037_2_alg».proof.Proof.Gen.Kernel
import proofs.«135135_j1846835938037_2_alg».proof.Proof.Gen.Kernel.Frame
import proofs.«135135_j1846835938037_2_alg».proof.Proof.Gen.KernelIdeal
import proofs.«135135_j1846835938037_2_alg».proof.Proof.Gen.KernelIdeal.Frame
import proofs.«135135_j1846835938037_2_alg».proof.Proof.Gen.ReferenceIdeal
import proofs.«135135_j1846835938037_2_alg».proof.Proof.Gen.ReferenceIdeal.Run
import proofs.«135135_j1846835938037_2_alg».proof.Proof.Gen.ReferenceIdeal.Read
import proofs.«135135_j1846835938037_2_alg».proof.Proof.Gen.Pre_finite_inputs
import proofs.«135135_j1846835938037_2_alg».proof.Proof.KernelValue
import proofs.«135135_j1846835938037_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The host program runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result array at the specification's function of the arguments. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KernelValue.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v39_eq, Cert.ReferenceIdeal.RefValue.ref_eq_G, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
